-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S400000x128 : Shape := ⟨2, ![400000, 128]⟩
abbrev S100000x128 : Shape := ⟨2, ![100000, 128]⟩
abbrev S600000 : Shape := ⟨1, ![600000]⟩
abbrev S3x128x128 : Shape := ⟨3, ![3, 128, 128]⟩
abbrev S3x128 : Shape := ⟨2, ![3, 128]⟩
abbrev S128x384 : Shape := ⟨2, ![128, 384]⟩
abbrev S128 : Shape := ⟨1, ![128]⟩
abbrev S128x128 : Shape := ⟨2, ![128, 128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S100000x128 : S_.BroadcastsInDim S100000x128 (![] : Fin 0 → Fin S100000x128.rank)
  reducesTo_S100000x128_S_d0_1 : S100000x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg13 : FVec F S128 .f32) (main_arg14 : FVec F S128x128 .f32) (main_arg15 : FVec F S128 .f32) (main_v33 : IVec S_ 1) : IVec S_ 1 :=
  let main_v34 : FVec F S128 .f32 := Host.absf main_arg13
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg14
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg15
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg10 : FVec F S3x128 .f32) (main_arg11 : FVec F S3x128x128 .f32) (main_arg12 : FVec F S128x384 .f32) (main_arg13 : FVec F S128 .f32) (main_arg14 : FVec F S128x128 .f32) (main_arg15 : FVec F S128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg10
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg11
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S128x384 .f32 := Host.absf main_arg12
  let main_cst_10 : FVec F S_ .f32 := constant S_ .f32 0x7F800000#32
  let main_v30 : FVec F S128x384 .f32 := broadcastInDim S128x384 ![] bcast_S_S128x384 main_cst_10
  let main_v31 : IVec S128x384 1 := cmpf .olt main_v29 main_v30
  let main_c_11 : IVec S_ 1 := constantI S_ 1 1#1
  let main_v32 : IVec S_ 1 := (fun x v => Host.reduce IntOp.andi x v reducesTo_S128x384_S_d0_1 h_S_) main_v31 main_c_11
  let main_v33 : IVec S_ 1 := andi main_v28 main_v32
  fn_part2 (F := F) main_arg13 main_arg14 main_arg15 main_v33

def fn {F : FTy → Type} [FloatOps F] (main_arg0 : FVec F S200000x128 .f32) (main_arg1 : FVec F S400000x128 .f32) (main_arg2 : FVec F S100000x128 .f32) (main_arg3 : IVec S600000 32) (main_arg4 : IVec S600000 32) (main_arg5 : IVec S600000 32) (main_arg6 : IVec S600000 32) (main_arg7 : IVec S600000 32) (main_arg8 : IVec S600000 32) (main_arg9 : FVec F S3x128x128 .f32) (main_arg10 : FVec F S3x128 .f32) (main_arg11 : FVec F S3x128x128 .f32) (main_arg12 : FVec F S128x384 .f32) (main_arg13 : FVec F S128 .f32) (main_arg14 : FVec F S128x128 .f32) (main_arg15 : FVec F S128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S3x128x128 .f32 := Host.absf main_arg9
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg10 main_arg11 main_arg12 main_arg13 main_arg14 main_arg15 main_v13 main_v16
-- ==== Kernel.lean ====
abbrev S200000x128 : Shape := ⟨2, ![200000, 128]⟩
abbrev S400000x128 : Shape := ⟨2, ![400000, 128]⟩
abbrev S100000x128 : Shape := ⟨2, ![100000, 128]⟩
abbrev S600000 : Shape := ⟨1, ![600000]⟩
abbrev S3x128x128 : Shape := ⟨3, ![3, 128, 128]⟩
abbrev S3x128 : Shape := ⟨2, ![3, 128]⟩
abbrev S128x384 : Shape := ⟨2, ![128, 384]⟩
abbrev S128 : Shape := ⟨1, ![128]⟩
abbrev S128x128 : Shape := ⟨2, ![128, 128]⟩
abbrev S_ : Shape := ⟨0, ![]⟩
abbrev S600000x1 : Shape := ⟨2, ![600000, 1]⟩
abbrev S600000x128 : Shape := ⟨2, ![600000, 128]⟩
abbrev S200000 : Shape := ⟨1, ![200000]⟩
abbrev S200000x1 : Shape := ⟨2, ![200000, 1]⟩
abbrev S384x128 : Shape := ⟨2, ![384, 128]⟩
abbrev S4000x128 : Shape := ⟨2, ![4000, 128]⟩
abbrev S1x128 : Shape := ⟨2, ![1, 128]⟩
abbrev S1x128x128 : Shape := ⟨3, ![1, 128, 128]⟩

abbrev nBuf : Space → Nat
  | .hbm => 96
  | .vmem => 17
  | .smem => 0
  | _ => 0

abbrev bufTy : (tb : Table) → Fin (tcTables nBuf tb) → BufTy
  | .hbm, ⟨0, _⟩ => ⟨S200000x128, .f32⟩
  | .hbm, ⟨1, _⟩ => ⟨S400000x128, .f32⟩
  | .hbm, ⟨2, _⟩ => ⟨S100000x128, .f32⟩
  | .hbm, ⟨3, _⟩ => ⟨S600000, .i32⟩
  | .hbm, ⟨4, _⟩ => ⟨S600000, .i32⟩
  | .hbm, ⟨5, _⟩ => ⟨S600000, .i32⟩
  | .hbm, ⟨6, _⟩ => ⟨S600000, .i32⟩
  | .hbm, ⟨7, _⟩ => ⟨S600000, .i32⟩
  | .hbm, ⟨8, _⟩ => ⟨S600000, .i32⟩
  | .hbm, ⟨9, _⟩ => ⟨S3x128x128, .f32⟩
  | .hbm, ⟨10, _⟩ => ⟨S3x128, .f32⟩
  | .hbm, ⟨11, _⟩ => ⟨S3x128x128, .f32⟩
  | .hbm, ⟨12, _⟩ => ⟨S128x384, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S200000x128, .f32⟩
  | .hbm, ⟨27, _⟩ => ⟨S600000x1, .i32⟩
  | .hbm, ⟨28, _⟩ => ⟨S200000x128, .f32⟩
  | .hbm, ⟨29, _⟩ => ⟨S_, .f32⟩
  | .hbm, ⟨30, _⟩ => ⟨S600000, .f32⟩
  | .hbm, ⟨31, _⟩ => ⟨S_, .f32⟩
  | .hbm, ⟨32, _⟩ => ⟨S200000, .f32⟩
  | .hbm, ⟨33, _⟩ => ⟨S600000x1, .i32⟩
  | .hbm, ⟨34, _⟩ => ⟨S200000, .f32⟩
  | .hbm, ⟨35, _⟩ => ⟨S_, .f32⟩
  | .hbm, ⟨36, _⟩ => ⟨S200000, .f32⟩
  | .hbm, ⟨37, _⟩ => ⟨S200000, .f32⟩
  | .hbm, ⟨38, _⟩ => ⟨S200000x1, .f32⟩
  | .hbm, ⟨39, _⟩ => ⟨S200000x128, .f32⟩
  | .hbm, ⟨40, _⟩ => ⟨S200000x128, .f32⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x128, .f32⟩
  | .hbm, ⟨50, _⟩ => ⟨S_, .f32⟩
  | .hbm, ⟨51, _⟩ => ⟨S200000x128, .f32⟩
  | .hbm, ⟨52, _⟩ => ⟨S600000x1, .i32⟩
  | .hbm, ⟨53, _⟩ => ⟨S200000x128, .f32⟩
  | .hbm, ⟨54, _⟩ => ⟨S_, .f32⟩
  | .hbm, ⟨55, _⟩ => ⟨S600000, .f32⟩
  | .hbm, ⟨56, _⟩ => ⟨S_, .f32⟩
  | .hbm, ⟨57, _⟩ => ⟨S200000, .f32⟩
  | .hbm, ⟨58, _⟩ => ⟨S600000x1, .i32⟩
  | .hbm, ⟨59, _⟩ => ⟨S200000, .f32⟩
  | .hbm, ⟨60, _⟩ => ⟨S_, .f32⟩
  | .hbm, ⟨61, _⟩ => ⟨S200000, .f32⟩
  | .hbm, ⟨62, _⟩ => ⟨S200000, .f32⟩
  | .hbm, ⟨63, _⟩ => ⟨S200000x1, .f32⟩
  | .hbm, ⟨64, _⟩ => ⟨S200000x128, .f32⟩
  | .hbm, ⟨65, _⟩ => ⟨S200000x128, .f32⟩
  | .hbm, ⟨66, _⟩ => ⟨S_, .i32⟩
  | .hbm, ⟨67, _⟩ => ⟨S600000, .i32⟩
  | .hbm, ⟨68, _⟩ => ⟨S600000, .i1⟩
  | .hbm, ⟨69, _⟩ => ⟨S_, .i32⟩
  | .hbm, ⟨70, _⟩ => ⟨S600000, .i32⟩
  | .hbm, ⟨71, _⟩ => ⟨S600000, .i32⟩
  | .hbm, ⟨72, _⟩ => ⟨S600000, .i32⟩
  | .hbm, ⟨73, _⟩ => ⟨S600000x1, .i32⟩
  | .hbm, ⟨74, _⟩ => ⟨S600000x128, .f32⟩
  | .hbm, ⟨75, _⟩ => ⟨S_, .f32⟩
  | .hbm, ⟨76, _⟩ => ⟨S200000x128, .f32⟩
  | .hbm, ⟨77, _⟩ => ⟨S600000x1, .i32⟩
  | .hbm, ⟨78, _⟩ => ⟨S200000x128, .f32⟩
  | .hbm, ⟨79, _⟩ => ⟨S_, .f32⟩
  | .hbm, ⟨80, _⟩ => ⟨S600000, .f32⟩
  | .hbm, ⟨81, _⟩ => ⟨S_, .f32⟩
  | .hbm, ⟨82, _⟩ => ⟨S200000, .f32⟩
  | .hbm, ⟨83, _⟩ => ⟨S600000x1, .i32⟩
  | .hbm, ⟨84, _⟩ => ⟨S200000, .f32⟩
  | .hbm, ⟨85, _⟩ => ⟨S_, .f32⟩
  | .hbm, ⟨86, _⟩ => ⟨S200000, .f32⟩
  | .hbm, ⟨87, _⟩ => ⟨S200000, .f32⟩
  | .hbm, ⟨88, _⟩ => ⟨S200000x1, .f32⟩
  | .hbm, ⟨89, _⟩ => ⟨S200000x128, .f32⟩
  | .hbm, ⟨90, _⟩ => ⟨S200000x128, .f32⟩
  | .hbm, ⟨91, _⟩ => ⟨S3x128x128, .f32⟩
  | .hbm, ⟨92, _⟩ => ⟨S3x128x128, .f32⟩
  | .hbm, ⟨93, _⟩ => ⟨S384x128, .f32⟩
  | .hbm, ⟨94, _⟩ => ⟨S128x128, .f32⟩
  | .hbm, ⟨95, _⟩ => ⟨S200000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S3x128x128, .f32⟩
  | .local _ .vmem, ⟨9, _⟩ => ⟨S3x128, .f32⟩
  | .local _ .vmem, ⟨10, _⟩ => ⟨S3x128x128, .f32⟩
  | .local _ .vmem, ⟨11, _⟩ => ⟨S384x128, .f32⟩
  | .local _ .vmem, ⟨12, _⟩ => ⟨S128, .f32⟩
  | .local _ .vmem, ⟨13, _⟩ => ⟨S128x128, .f32⟩
  | .local _ .vmem, ⟨14, _⟩ => ⟨S128, .f32⟩
  | .local _ .vmem, ⟨15, _⟩ => ⟨S4000x128, .f32⟩
  | .local _ .vmem, ⟨16, _⟩ => ⟨S4000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_7 : Ref sig .tc := ⟨.hbm, 54, rfl⟩
abbrev main_v29 : Ref sig .tc := ⟨.hbm, 55, rfl⟩
abbrev main_cst_8 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_9 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_10 : Ref sig .tc := ⟨.hbm, 66, rfl⟩
abbrev main_v38 : Ref sig .tc := ⟨.hbm, 67, rfl⟩
abbrev main_v39 : Ref sig .tc := ⟨.hbm, 68, rfl⟩
abbrev main_c_11 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_12 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_13 : Ref sig .tc := ⟨.hbm, 79, rfl⟩
abbrev main_v48 : Ref sig .tc := ⟨.hbm, 80, rfl⟩
abbrev main_cst_14 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_15 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  transposes_S3x128x128_S3x128x128_0_2_1 : S3x128x128.Transposes [0, 2, 1] S3x128x128
  transposes_S128x384_S384x128_1_0 : S128x384.Transposes [1, 0] S384x128
  transposes_S128x128_S128x128_1_0 : S128x128.Transposes [1, 0] S128x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128_S1x128_0_0 : ∀ a, (![0, 0] : Fin 2 → Nat) a + S1x128.size a ≤ S3x128.size a
  h_S1x128 : 0 < S1x128.numel
  shapeCasts_S1x128_S128 : S1x128.ShapeCasts S128
  inb_S384x128_S128x128_0_0 : ∀ a, (![0, 0] : Fin 2 → Nat) a + S128x128.size a ≤ S384x128.size a
  h_S128x128 : 0 < S128x128.numel
  shapeCasts_S128x128_S128x128 : S128x128.ShapeCasts S128x128
  inb_S3x128x128_S1x128x128_1_0_0 : ∀ a, (![1, 0, 0] : Fin 3 → Nat) a + S1x128x128.size a ≤ S3x128x128.size a
  inb_S3x128_S1x128_1_0 : ∀ a, (![1, 0] : Fin 2 → Nat) a + S1x128.size a ≤ S3x128.size a
  inb_S384x128_S128x128_128_0 : ∀ a, (![128, 0] : Fin 2 → Nat) a + S128x128.size a ≤ S384x128.size a
  inb_S3x128x128_S1x128x128_2_0_0 : ∀ a, (![2, 0, 0] : Fin 3 → Nat) a + S1x128x128.size a ≤ S3x128x128.size a
  inb_S3x128_S1x128_2_0 : ∀ a, (![2, 0] : Fin 2 → Nat) a + S1x128.size a ≤ S3x128.size a
  inb_S384x128_S128x128_256_0 : ∀ a, (![256, 0] : Fin 2 → Nat) a + S128x128.size a ≤ S384x128.size a
  inb_S128x128_S128x128_0_0 : ∀ a, (![0, 0] : Fin 2 → Nat) a + S128x128.size a ≤ S128x128.size a
  gather_S400000x128_S600000x1_S600000x128_1_0_n_n_0_1_1128_wf : GatherDims.WF S400000x128 S600000x1 S600000x128 [1] [0] [] [0] [] 1 ![1, 128]
  scatter_S200000x128_S600000x1_S600000x128_1_0_0_1_wf : ScatterDims.WF S200000x128 S600000x1 S600000x128 [1] [0] [0] 1
  scatter_S200000_S600000x1_S600000_n_0_0_1_wf : ScatterDims.WF S200000 S600000x1 S600000 [] [0] [0] 1
  gather_S100000x128_S600000x1_S600000x128_1_0_n_n_0_1_1128_wf : GatherDims.WF S100000x128 S600000x1 S600000x128 [1] [0] [] [0] [] 1 ![1, 128]
  gather_S200000x128_S600000x1_S600000x128_1_0_n_n_0_1_1128_wf : GatherDims.WF S200000x128 S600000x1 S600000x128 [1] [0] [] [0] [] 1 ![1, 128]
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S200000x128.size a
  hwx0_1 : ∀ i : grid0.Coords, EltTy.bits .f32 = 32 ∨ (Rect.block (s := S200000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S200000x128.size a
  hwx0_2 : ∀ i : grid0.Coords, EltTy.bits .f32 = 32 ∨ (Rect.block (s := S200000x128) S4000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S200000x128.size a
  hwx0_3 : ∀ i : grid0.Coords, EltTy.bits .f32 = 32 ∨ (Rect.block (s := S200000x128) S4000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x128x128.size a ≤ S3x128x128.size a
  hwx0_4 : ∀ i : grid0.Coords, EltTy.bits .f32 = 32 ∨ (Rect.block (s := S3x128x128) S3x128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x128.size a ≤ S3x128.size a
  hwx0_5 : ∀ i : grid0.Coords, EltTy.bits .f32 = 32 ∨ (Rect.block (s := S3x128) S3x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x128x128.size a ≤ S3x128x128.size a
  hwx0_6 : ∀ i : grid0.Coords, EltTy.bits .f32 = 32 ∨ (Rect.block (s := S3x128x128) S3x128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S384x128.size a ≤ S384x128.size a
  hwx0_7 : ∀ i : grid0.Coords, EltTy.bits .f32 = 32 ∨ (Rect.block (s := S384x128) S384x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x128.size a ≤ S200000x128.size a
  hwx0_11 : ∀ i : grid0.Coords, EltTy.bits .f32 = 32 ∨ (Rect.block (s := S200000x128) S4000x128.size (cc0_transform_11 i) (hinb0_11 i)).WholeWords (EltTy.packing .f32)

variable [Facts₀]

def gather_S400000x128_S600000x1_S600000x128_1_0_n_n_0_1_1128 : GatherDims S400000x128 S600000x1 S600000x128 where
  offsetDims := [1]
  collapsedSliceDims := [0]
  operandBatchingDims := []
  startIndicesBatchingDims := []
  startIndexMap := [0]
  indexVectorDim := 1
  sliceSizes := ![1, 128]
  wf := gather_S400000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v18) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v56) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S4000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v57) S3x128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S3x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v58) S3x128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v59) S384x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg13) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v60) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg15) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v61) S4000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S200000x128 : Shape := ⟨2, ![200000, 128]⟩
abbrev S400000x128 : Shape := ⟨2, ![400000, 128]⟩
abbrev S100000x128 : Shape := ⟨2, ![100000, 128]⟩
abbrev S600000 : Shape := ⟨1, ![600000]⟩
abbrev S3x128x128 : Shape := ⟨3, ![3, 128, 128]⟩
abbrev S3x128 : Shape := ⟨2, ![3, 128]⟩
abbrev S128x384 : Shape := ⟨2, ![128, 384]⟩
abbrev S128 : Shape := ⟨1, ![128]⟩
abbrev S128x128 : Shape := ⟨2, ![128, 128]⟩
abbrev S1x128x128 : Shape := ⟨3, ![1, 128, 128]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S200000 : Shape := ⟨1, ![200000]⟩
abbrev S200000x1 : Shape := ⟨2, ![200000, 1]⟩
abbrev S200000x384 : Shape := ⟨2, ![200000, 384]⟩
abbrev S384x128 : Shape := ⟨2, ![384, 128]⟩

abbrev nBuf : Space → Nat
  | .hbm => 147
  | .vmem => 0
  | .smem => 0
  | _ => 0

abbrev hbmTy0_0 (i : Nat) : BufTy := match i % 128 with
  | 0 => ⟨S200000x128, .f32⟩
  | 1 => ⟨S400000x128, .f32⟩
  | 2 => ⟨S100000x128, .f32⟩
  | 3 => ⟨S600000, .i32⟩
  | 4 => ⟨S600000, .i32⟩
  | 5 => ⟨S600000, .i32⟩
  | 6 => ⟨S600000, .i32⟩
  | 7 => ⟨S600000, .i32⟩
  | 8 => ⟨S600000, .i32⟩
  | 9 => ⟨S3x128x128, .f32⟩
  | 10 => ⟨S3x128, .f32⟩
  | 11 => ⟨S3x128x128, .f32⟩
  | 12 => ⟨S128x384, .f32⟩
  | 13 => ⟨S128, .f32⟩
  | 14 => ⟨S128x128, .f32⟩
  | 15 => ⟨S128, .f32⟩
  | 16 => ⟨S1x128x128, .f32⟩
  | 17 => ⟨S128x128, .f32⟩
  | 18 => ⟨S1x128, .f32⟩
  | 19 => ⟨S128, .f32⟩
  | 20 => ⟨S1x128x128, .f32⟩
  | 21 => ⟨S128x128, .f32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000x128, .f32⟩
  | 31 => ⟨S_, .f32⟩
  | 32 => ⟨S200000x128, .f32⟩
  | 33 => ⟨S600000x1, .i32⟩
  | 34 => ⟨S200000x128, .f32⟩
  | 35 => ⟨S_, .f32⟩
  | 36 => ⟨S600000, .f32⟩
  | 37 => ⟨S_, .f32⟩
  | 38 => ⟨S200000, .f32⟩
  | 39 => ⟨S600000x1, .i32⟩
  | 40 => ⟨S200000, .f32⟩
  | 41 => ⟨S_, .f32⟩
  | 42 => ⟨S200000, .f32⟩
  | 43 => ⟨S200000, .f32⟩
  | 44 => ⟨S200000x1, .f32⟩
  | 45 => ⟨S200000x128, .f32⟩
  | 46 => ⟨S200000x128, .f32⟩
  | 47 => ⟨S128x128, .f32⟩
  | 48 => ⟨S200000x128, .f32⟩
  | 49 => ⟨S1x128, .f32⟩
  | 50 => ⟨S200000x128, .f32⟩
  | 51 => ⟨S200000x128, .f32⟩
  | 52 => ⟨S128x128, .f32⟩
  | 53 => ⟨S200000x128, .f32⟩
  | 54 => ⟨S200000x128, .f32⟩
  | 55 => ⟨S1x128x128, .f32⟩
  | 56 => ⟨S128x128, .f32⟩
  | 57 => ⟨S1x128, .f32⟩
  | 58 => ⟨S128, .f32⟩
  | 59 => ⟨S1x128x128, .f32⟩
  | 60 => ⟨S128x128, .f32⟩
  | 61 => ⟨S_, .i32⟩
  | 62 => ⟨S600000, .i32⟩
  | 63 => ⟨S600000, .i1⟩
  | 64 => ⟨S_, .i32⟩
  | 65 => ⟨S600000, .i32⟩
  | 66 => ⟨S600000, .i32⟩
  | 67 => ⟨S600000, .i32⟩
  | 68 => ⟨S600000x1, .i32⟩
  | 69 => ⟨S600000x128, .f32⟩
  | 70 => ⟨S_, .f32⟩
  | 71 => ⟨S200000x128, .f32⟩
  | 72 => ⟨S600000x1, .i32⟩
  | 73 => ⟨S200000x128, .f32⟩
  | 74 => ⟨S_, .f32⟩
  | 75 => ⟨S600000, .f32⟩
  | 76 => ⟨S_, .f32⟩
  | 77 => ⟨S200000, .f32⟩
  | 78 => ⟨S600000x1, .i32⟩
  | 79 => ⟨S200000, .f32⟩
  | 80 => ⟨S_, .f32⟩
  | 81 => ⟨S200000, .f32⟩
  | 82 => ⟨S200000, .f32⟩
  | 83 => ⟨S200000x1, .f32⟩
  | 84 => ⟨S200000x128, .f32⟩
  | 85 => ⟨S200000x128, .f32⟩
  | 86 => ⟨S128x128, .f32⟩
  | 87 => ⟨S200000x128, .f32⟩
  | 88 => ⟨S1x128, .f32⟩
  | 89 => ⟨S200000x128, .f32⟩
  | 90 => ⟨S200000x128, .f32⟩
  | 91 => ⟨S128x128, .f32⟩
  | 92 => ⟨S200000x128, .f32⟩
  | 93 => ⟨S200000x128, .f32⟩
  | 94 => ⟨S1x128x128, .f32⟩
  | 95 => ⟨S128x128, .f32⟩
  | 96 => ⟨S1x128, .f32⟩
  | 97 => ⟨S128, .f32⟩
  | 98 => ⟨S1x128x128, .f32⟩
  | 99 => ⟨S128x128, .f32⟩
  | 100 => ⟨S_, .i32⟩
  | 101 => ⟨S600000, .i32⟩
  | 102 => ⟨S600000, .i1⟩
  | 103 => ⟨S_, .i32⟩
  | 104 => ⟨S600000, .i32⟩
  | 105 => ⟨S600000, .i32⟩
  | 106 => ⟨S600000, .i32⟩
  | 107 => ⟨S600000x1, .i32⟩
  | 108 => ⟨S600000x128, .f32⟩
  | 109 => ⟨S_, .f32⟩
  | 110 => ⟨S200000x128, .f32⟩
  | 111 => ⟨S600000x1, .i32⟩
  | 112 => ⟨S200000x128, .f32⟩
  | 113 => ⟨S_, .f32⟩
  | 114 => ⟨S600000, .f32⟩
  | 115 => ⟨S_, .f32⟩
  | 116 => ⟨S200000, .f32⟩
  | 117 => ⟨S600000x1, .i32⟩
  | 118 => ⟨S200000, .f32⟩
  | 119 => ⟨S_, .f32⟩
  | 120 => ⟨S200000, .f32⟩
  | 121 => ⟨S200000, .f32⟩
  | 122 => ⟨S200000x1, .f32⟩
  | 123 => ⟨S200000x128, .f32⟩
  | 124 => ⟨S200000x128, .f32⟩
  | 125 => ⟨S128x128, .f32⟩
  | 126 => ⟨S200000x128, .f32⟩
  | 127 => ⟨S1x128, .f32⟩
  | _ => ⟨S200000x128, .f32⟩

abbrev hbmTy0_1 (i : Nat) : BufTy := match i % 128 with
  | 0 => ⟨S200000x128, .f32⟩
  | 1 => ⟨S200000x128, .f32⟩
  | 2 => ⟨S128x128, .f32⟩
  | 3 => ⟨S200000x128, .f32⟩
  | 4 => ⟨S200000x128, .f32⟩
  | 5 => ⟨S200000x384, .f32⟩
  | 6 => ⟨S384x128, .f32⟩
  | 7 => ⟨S200000x128, .f32⟩
  | 8 => ⟨S1x128, .f32⟩
  | 9 => ⟨S200000x128, .f32⟩
  | 10 => ⟨S200000x128, .f32⟩
  | 11 => ⟨S_, .f32⟩
  | 12 => ⟨S200000x128, .f32⟩
  | 13 => ⟨S200000x128, .f32⟩
  | 14 => ⟨S128x128, .f32⟩
  | 15 => ⟨S200000x128, .f32⟩
  | 16 => ⟨S1x128, .f32⟩
  | 17 => ⟨S200000x128, .f32⟩
  | 18 => ⟨S200000x128, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c : Ref sig .tc := ⟨.hbm, 22, rfl⟩
abbrev main_v6 : Ref sig .tc := ⟨.hbm, 23, rfl⟩
abbrev main_v7 : Ref sig .tc := ⟨.hbm, 24, rfl⟩
abbrev main_c_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_3 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_4 : Ref sig .tc := ⟨.hbm, 61, rfl⟩
abbrev main_v39 : Ref sig .tc := ⟨.hbm, 62, rfl⟩
abbrev main_v40 : Ref sig .tc := ⟨.hbm, 63, rfl⟩
abbrev main_c_5 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_6 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_7 : Ref sig .tc := ⟨.hbm, 74, rfl⟩
abbrev main_v49 : Ref sig .tc := ⟨.hbm, 75, rfl⟩
abbrev main_cst_8 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_10 : Ref sig .tc := ⟨.hbm, 100, rfl⟩
abbrev main_v72 : Ref sig .tc := ⟨.hbm, 101, rfl⟩
abbrev main_v73 : Ref sig .tc := ⟨.hbm, 102, rfl⟩
abbrev main_c_11 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_12 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_13 : Ref sig .tc := ⟨.hbm, 113, rfl⟩
abbrev main_v82 : Ref sig .tc := ⟨.hbm, 114, rfl⟩
abbrev main_cst_14 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_15 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_call0_cst : Ref sig .tc := ⟨.hbm, 139, rfl⟩
abbrev main_call0_v0 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩

abbrev nD : Nat := 1
abbrev τ : Topo := Topo.v7x

variable {F : FTy → Type} [FloatOps F]

class Facts₀ : Prop where
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S600000 : S_.BroadcastsInDim S600000 (![] : Fin 0 → Fin S600000.rank)
  bcast_S600000_S600000x1_0 : S600000.BroadcastsInDim S600000x1 (![0] : Fin 1 → Fin S600000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  transposes_S128x128_S128x128_1_0 : S128x128.Transposes [1, 0] S128x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S200000x128_S200000x128_S200000x128_S200000x384_d1 : Shape.Concatenates [S200000x128, S200000x128, S200000x128] S200000x384 1
  transposes_S128x384_S384x128_1_0 : S128x384.Transposes [1, 0] S384x128
  gather_S400000x128_S600000x1_S600000x128_1_0_n_n_0_1_1128_wf : GatherDims.WF S400000x128 S600000x1 S600000x128 [1] [0] [] [0] [] 1 ![1, 128]
  scatter_S200000x128_S600000x1_S600000x128_1_0_0_1_wf : ScatterDims.WF S200000x128 S600000x1 S600000x128 [1] [0] [0] 1
  scatter_S200000_S600000x1_S600000_n_0_0_1_wf : ScatterDims.WF S200000 S600000x1 S600000 [] [0] [0] 1
  dot_S200000x128_S128x128_S200000x128_1_0_0_1_n_n_wf : DotDims.WF S200000x128 S128x128 S200000x128 [1] [0] [0] [1] [] []
  gather_S100000x128_S600000x1_S600000x128_1_0_n_n_0_1_1128_wf : GatherDims.WF S100000x128 S600000x1 S600000x128 [1] [0] [] [0] [] 1 ![1, 128]
  gather_S200000x128_S600000x1_S600000x128_1_0_n_n_0_1_1128_wf : GatherDims.WF S200000x128 S600000x1 S600000x128 [1] [0] [] [0] [] 1 ![1, 128]
  dot_S200000x384_S384x128_S200000x128_1_0_0_1_n_n_wf : DotDims.WF S200000x384 S384x128 S200000x128 [1] [0] [0] [1] [] []

variable [Facts₀]

def gather_S400000x128_S600000x1_S600000x128_1_0_n_n_0_1_1128 : GatherDims S400000x128 S600000x1 S600000x128 where
  offsetDims := [1]
  collapsedSliceDims := [0]
  operandBatchingDims := []
  startIndicesBatchingDims := []
  startIndexMap := [0]
  indexVectorDim := 1
  sliceSizes := ![1, 128]
  wf := gather_S400000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def dot_S200000x384_S384x128_S200000x128_1_0_0_1_n_n : DotDims S200000x384 S384x128 S200000x128 where
  lhsContracting := [1]
  rhsContracting := [0]
  lhsNonContracting := [0]
  rhsNonContracting := [1]
  lhsBatch := []
  rhsBatch := []
  wf := dot_S200000x384_S384x128_S200000x128_1_0_0_1_n_n_wf

class Facts : Prop extends Facts₀ where

variable [Facts]
-- ==== Proof.LibPlainMatmul.lean ====
/-
  A plain matrix product read at a row and a column.

  For a product of an `[M, K]` matrix by a `[K, N]` matrix that contracts the first operand's second axis with the second
  operand's first axis and has no batch axis, accumulated into the zero matrix, the entry at `(i, o)` is, on the extended
  reals, the sum over `k` of the first operand at `(i, k)` times the second at `(k, o)`.  The lemma takes the four
  coordinate facts of the dimension record (which operand coordinate reads the result index, which the contraction index) as
  hypotheses, so that it serves any record with this layout, whatever its extents.
-/
import Idealize.ShloMosaic.PureOps.Ideal.Laws
import Idealize.ShloMosaic.Lib.ValueIdx

noncomputable section

open scoped BigOperators

namespace Cert.Lib.PlainMatmul

open Idealize.ShloMosaic Idealize.ShloMosaic.ValueIdx

/-- The entry `(i, o)` of `lhs · rhs` accumulated into zero is `∑ k, lhs (i, k) * rhs (k, o)`. -/
theorem matmul_zero_apply {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ (j : (⟨2, ![M, N]⟩ : Shape).Idx) (q : d.contr.Idx), (d.lhsIdx j q ⟨0, Nat.zero_lt_two⟩).val = (j ⟨0, Nat.zero_lt_two⟩).val)
    (l1 : ∀ (j : (⟨2, ![M, N]⟩ : Shape).Idx) (q : d.contr.Idx), (d.lhsIdx j q ⟨1, Nat.one_lt_two⟩).val = (q ⟨0, by omega⟩).val)
    (r0 : ∀ (j : (⟨2, ![M, N]⟩ : Shape).Idx) (q : d.contr.Idx), (d.rhsIdx j q ⟨0, Nat.zero_lt_two⟩).val = (q ⟨0, by omega⟩).val)
    (r1 : ∀ (j : (⟨2, ![M, N]⟩ : Shape).Idx) (q : d.contr.Idx), (d.rhsIdx j q ⟨1, Nat.one_lt_two⟩).val = (j ⟨1, Nat.one_lt_two⟩).val)
    (prec : Option ContractPrecision) (lhs : FVec Ideal ⟨2, ![M, K]⟩ φ₁) (rhs : FVec Ideal ⟨2, ![K, N]⟩ φ₂)
    (i : Fin M) (o : Fin N) :
    matmul d prec lhs rhs (constant ⟨2, ![M, N]⟩ .f32 0x00000000#32) (ix2 i o)
      = ∑ k : Fin K, lhs (ix2 i k) * rhs (ix2 k o) := by
  refine (Ideal.matmul_constant_zero_apply d prec lhs rhs (ix2 i o)).trans ?_
  rw [← Equiv.sum_comp (contrEquiv1 d K hr hs).symm]
  refine Finset.sum_congr rfl fun k _ => ?_
  have hk := contrEquiv1_symm_val d K hr hs k
  have el : d.lhsIdx (ix2 i o) ((contrEquiv1 d K hr hs).symm k) = ix2 i k := funext fun a => Fin.ext (by
    match a with
    | ⟨0, _⟩ => exact l0 _ _
    | ⟨1, _⟩ => exact (l1 _ _).trans hk)
  have er : d.rhsIdx (ix2 i o) ((contrEquiv1 d K hr hs).symm k) = ix2 k o := funext fun a => Fin.ext (by
    match a with
    | ⟨0, _⟩ => exact (r0 _ _).trans hk
    | ⟨1, _⟩ => exact r1 _ _)
  rw [el, er]

end Cert.Lib.PlainMatmul

end
-- ==== Proof.LibUnitLoad.lean ====
/-
  A load through a unit-stride rectangle, read at an index.

  A rectangle of unit stride picks, on every axis, `size` consecutive coordinates starting at `off`.  What a load through
  it reads at a local index `z` is the buffer's contents at the index whose every coordinate is `off + z`.
-/
import Idealize.ShloMosaic.Lib.Pipeline.Value

noncomputable section

namespace Cert.Lib.UnitLoad

open Idealize.ShloMosaic

/-- `View.ld X (Rect.unit off size _) z = X i` when `i` is `z` shifted by `off` on every axis. -/
theorem ld_unit_apply {Val : EltTy → Type} {S : Shape} {e : EltTy} (X : S.Idx → Val e) (off size : Fin S.rank → Nat)
    (inb : ∀ a, off a + size a ≤ S.size a) (z : (Rect.unit off size inb).shape.Idx) (i : S.Idx)
    (h : ∀ a, (i a).val = off a + (z a).val) : View.ld X (Rect.unit off size inb) z = X i := by
  show X ((Rect.unit off size inb).idx z) = X i
  congr 1
  funext a
  apply Fin.ext
  rw [h a]
  show off a + 1 * (z a).val = _
  rw [Nat.one_mul]

end Cert.Lib.UnitLoad

end
-- ==== Proof.LibSplitConcat.lean ====
/-
  Two facts used to read a dense layer that is fed a concatenation of feature rows.

  A sum over an index range that is laid out as two or three consecutive blocks is the sum of the
  blocks' sums.  An array obtained by joining two or three arrays along their second axis, read at a
  row and a column, is the piece whose block of columns holds the column, read at the same row and at
  the column counted from the start of that block.
-/
import Idealize.ShloMosaic.Lib.Pipeline.Value
import Idealize.ShloMosaic.Lib.ValueIdx

open scoped BigOperators

namespace Cert.ReferenceIdeal.Stages

open Idealize.ShloMosaic Idealize.ShloMosaic.ValueIdx

/-! ## A sum over consecutive blocks -/

/-- A sum over `A + B` consecutive positions is the sum over the first `A` plus the sum over the last `B`. -/
theorem sum_split2 {M : Type} [AddCommMonoid M] {A B N : Nat} (h : A + B = N) (f : Fin N → M) :
    ∑ k : Fin N, f k
      = (∑ k : Fin A, f ⟨k.val, by omega⟩) + ∑ k : Fin B, f ⟨A + k.val, by omega⟩ := by
  subst h
  rw [Fin.sum_univ_add]
  rfl

/-- A sum over `A + B + C` consecutive positions is the sum of the three blocks' sums. -/
theorem sum_split3 {M : Type} [AddCommMonoid M] {A B C N : Nat} (h : A + B + C = N) (f : Fin N → M) :
    ∑ k : Fin N, f k
      = (∑ k : Fin A, f ⟨k.val, by omega⟩) + (∑ k : Fin B, f ⟨A + k.val, by omega⟩)
          + ∑ k : Fin C, f ⟨A + B + k.val, by omega⟩ := by
  subst h
  rw [Fin.sum_univ_add, Fin.sum_univ_add]
  rfl

/-! ## Arrays joined along the second axis, read at a row and a column -/

section Cat
variable {α : Type}

/-- Two arrays joined along the second axis: a column in the first block reads the first array. -/
theorem cat2_left {E A B N : Nat} (x₁ : (⟨2, ![E, A]⟩ : Shape).Idx → α) (x₂ : (⟨2, ![E, B]⟩ : Shape).Idx → α)
    (h : Shape.Concatenates [⟨2, ![E, A]⟩, ⟨2, ![E, B]⟩] ⟨2, ![E, N]⟩ 1) (e : Fin E) (k : Fin A) (hk : k.val < N) :
    concatenate ⟨2, ![E, N]⟩ 1 [⟨⟨2, ![E, A]⟩, x₁⟩, ⟨⟨2, ![E, B]⟩, x₂⟩] h (ix2 e ⟨k.val, hk⟩) = x₁ (ix2 e k) :=
  concatenate_pair_apply_left 1 x₁ x₂ h _ rfl _ (fun b => by
    match b with
    | ⟨0, _⟩ => rfl
    | ⟨1, _⟩ => rfl)

/-- Two arrays joined along the second axis: a column in the second block reads the second array. -/
theorem cat2_right {E A B N : Nat} (x₁ : (⟨2, ![E, A]⟩ : Shape).Idx → α) (x₂ : (⟨2, ![E, B]⟩ : Shape).Idx → α)
    (h : Shape.Concatenates [⟨2, ![E, A]⟩, ⟨2, ![E, B]⟩] ⟨2, ![E, N]⟩ 1) (e : Fin E) (k : Fin B) (hk : A + k.val < N) :
    concatenate ⟨2, ![E, N]⟩ 1 [⟨⟨2, ![E, A]⟩, x₁⟩, ⟨⟨2, ![E, B]⟩, x₂⟩] h (ix2 e ⟨A + k.val, hk⟩) = x₂ (ix2 e k) :=
  concatenate_pair_apply_right 1 x₁ x₂ h _ rfl rfl _
    (fun b hb => by
      match b with
      | ⟨0, _⟩ => rfl
      | ⟨1, _⟩ => exact absurd rfl hb)
    (Nat.add_comm _ _)

/-- Three arrays joined along the second axis: a column in the first block reads the first array. -/
theorem cat3_first {E A B C N : Nat} (x₁ : (⟨2, ![E, A]⟩ : Shape).Idx → α) (x₂ : (⟨2, ![E, B]⟩ : Shape).Idx → α)
    (x₃ : (⟨2, ![E, C]⟩ : Shape).Idx → α)
    (h : Shape.Concatenates [⟨2, ![E, A]⟩, ⟨2, ![E, B]⟩, ⟨2, ![E, C]⟩] ⟨2, ![E, N]⟩ 1) (e : Fin E) (k : Fin A)
    (hk : k.val < N) :
    concatenate ⟨2, ![E, N]⟩ 1 [⟨⟨2, ![E, A]⟩, x₁⟩, ⟨⟨2, ![E, B]⟩, x₂⟩, ⟨⟨2, ![E, C]⟩, x₃⟩] h (ix2 e ⟨k.val, hk⟩)
      = x₁ (ix2 e k) :=
  concatenate_apply_piece (t := ⟨2, ![E, N]⟩) 1 [⟨⟨2, ![E, A]⟩, x₁⟩, ⟨⟨2, ![E, B]⟩, x₂⟩, ⟨⟨2, ![E, C]⟩, x₃⟩] h _ 0 (show (0 : Nat) < 3 by omega) ⟨2, ![E, A]⟩ x₁ rfl rfl 0 rfl (ix2 e k)
    (fun b hb => by
      match b with
      | ⟨0, _⟩ => rfl
      | ⟨1, _⟩ => exact absurd rfl hb)
    (Nat.zero_add _)

/-- Three arrays joined along the second axis: a column in the second block reads the second array. -/
theorem cat3_second {E A B C N : Nat} (x₁ : (⟨2, ![E, A]⟩ : Shape).Idx → α) (x₂ : (⟨2, ![E, B]⟩ : Shape).Idx → α)
    (x₃ : (⟨2, ![E, C]⟩ : Shape).Idx → α)
    (h : Shape.Concatenates [⟨2, ![E, A]⟩, ⟨2, ![E, B]⟩, ⟨2, ![E, C]⟩] ⟨2, ![E, N]⟩ 1) (e : Fin E) (k : Fin B)
    (hk : A + k.val < N) :
    concatenate ⟨2, ![E, N]⟩ 1 [⟨⟨2, ![E, A]⟩, x₁⟩, ⟨⟨2, ![E, B]⟩, x₂⟩, ⟨⟨2, ![E, C]⟩, x₃⟩] h (ix2 e ⟨A + k.val, hk⟩)
      = x₂ (ix2 e k) :=
  concatenate_apply_piece (t := ⟨2, ![E, N]⟩) 1 [⟨⟨2, ![E, A]⟩, x₁⟩, ⟨⟨2, ![E, B]⟩, x₂⟩, ⟨⟨2, ![E, C]⟩, x₃⟩] h _ 1 (show (1 : Nat) < 3 by omega) ⟨2, ![E, B]⟩ x₂ rfl rfl A (Nat.add_zero A) (ix2 e k)
    (fun b hb => by
      match b with
      | ⟨0, _⟩ => rfl
      | ⟨1, _⟩ => exact absurd rfl hb)
    rfl

/-- Three arrays joined along the second axis: a column in the third block reads the third array. -/
theorem cat3_third {E A B C N : Nat} (x₁ : (⟨2, ![E, A]⟩ : Shape).Idx → α) (x₂ : (⟨2, ![E, B]⟩ : Shape).Idx → α)
    (x₃ : (⟨2, ![E, C]⟩ : Shape).Idx → α)
    (h : Shape.Concatenates [⟨2, ![E, A]⟩, ⟨2, ![E, B]⟩, ⟨2, ![E, C]⟩] ⟨2, ![E, N]⟩ 1) (e : Fin E) (k : Fin C)
    (hk : A + B + k.val < N) :
    concatenate ⟨2, ![E, N]⟩ 1 [⟨⟨2, ![E, A]⟩, x₁⟩, ⟨⟨2, ![E, B]⟩, x₂⟩, ⟨⟨2, ![E, C]⟩, x₃⟩] h
        (ix2 e ⟨A + B + k.val, hk⟩)
      = x₃ (ix2 e k) :=
  concatenate_apply_piece (t := ⟨2, ![E, N]⟩) 1 [⟨⟨2, ![E, A]⟩, x₁⟩, ⟨⟨2, ![E, B]⟩, x₂⟩, ⟨⟨2, ![E, C]⟩, x₃⟩] h _ 2 (show (2 : Nat) < 3 by omega) ⟨2, ![E, C]⟩ x₃ rfl rfl (A + B) (show A + (B + 0) = A + B from rfl) (ix2 e k)
    (fun b hb => by
      match b with
      | ⟨0, _⟩ => rfl
      | ⟨1, _⟩ => exact absurd rfl hb)
    rfl

end Cat

end Cert.ReferenceIdeal.Stages
-- ==== Proof.RowSpec.lean ====
/-
  The network's value at one row, as plain sums over the extended reals.

  Every output row depends on one row of each of the three neighbour means and of the user features, and on the
  weights.  `sage` is one relation's layer at a row: the mean row times the neighbour weights, plus the user row times
  the root weights, plus the bias.  `hidden` is the pre-activation of the first dense layer, whose 384 inputs are the
  three relations' outputs laid side by side: it is written here as the bias plus one 128-term sum per relation.
  `head` clamps the pre-activation below at zero and applies the last dense layer.

  The two programs group these sums differently: one adds the bias of a relation after both products and accumulates
  the first dense layer relation by relation starting from its bias; the other adds the relation's bias between the
  two products and contracts all 384 inputs at once before adding the bias.  `sageAlt_eq` and `hiddenAlt_eq` say the
  groupings agree; both use only that addition of extended reals is commutative and associative, so no finiteness of
  the inputs is needed.
-/
import Idealize.ShloMosaic.PureOps.Ideal
import proofs.«155005_j74036646248794_1_alg».proof.Proof.LibSplitConcat

noncomputable section

open scoped BigOperators

namespace Cert.RowSpec

open Idealize.ShloMosaic

/-- One relation's layer at a row: `(∑ₖ mₖ·wlₖₐ + ∑ₖ xₖ·wrₖₐ) + bₐ`. -/
def sage (m x : Fin 128 → EReal) (wl wr : Fin 128 → Fin 128 → EReal) (b : Fin 128 → EReal) : Fin 128 → EReal :=
  fun a => ((∑ k : Fin 128, m k * wl k a) + ∑ k : Fin 128, x k * wr k a) + b a

/-- The same layer with the bias added between the two products. -/
def sageAlt (m x : Fin 128 → EReal) (wl wr : Fin 128 → Fin 128 → EReal) (b : Fin 128 → EReal) : Fin 128 → EReal :=
  fun a => ((∑ k : Fin 128, m k * wl k a) + b a) + ∑ k : Fin 128, x k * wr k a

theorem sageAlt_eq (m x : Fin 128 → EReal) (wl wr : Fin 128 → Fin 128 → EReal) (b : Fin 128 → EReal) :
    sageAlt m x wl wr b = sage m x wl wr b :=
  funext fun _ => add_right_comm _ _ _

/-- The first dense layer's pre-activation, accumulated relation by relation from its bias. -/
def hidden (o0 o1 o2 : Fin 128 → EReal) (w0 w1 w2 : Fin 128 → Fin 128 → EReal) (b1 : Fin 128 → EReal) :
    Fin 128 → EReal :=
  fun k => ((b1 k + ∑ a : Fin 128, o0 a * w0 a k) + ∑ a : Fin 128, o1 a * w1 a k) + ∑ a : Fin 128, o2 a * w2 a k

/-- The same pre-activation with the 384 inputs contracted at once and the bias added last. -/
def hiddenAlt (cat : Fin 384 → EReal) (w : Fin 384 → Fin 128 → EReal) (b1 : Fin 128 → EReal) : Fin 128 → EReal :=
  fun k => (∑ a : Fin 384, cat a * w a k) + b1 k

/-- A 384-term contraction of three 128-wide pieces laid side by side is the sum of the pieces' contractions. -/
theorem hiddenAlt_eq (cat : Fin 384 → EReal) (w : Fin 384 → Fin 128 → EReal) (b1 : Fin 128 → EReal)
    (o0 o1 o2 : Fin 128 → EReal)
    (h0 : ∀ a : Fin 128, cat ⟨a.val, by omega⟩ = o0 a)
    (h1 : ∀ a : Fin 128, cat ⟨128 + a.val, by omega⟩ = o1 a)
    (h2 : ∀ a : Fin 128, cat ⟨128 + 128 + a.val, by omega⟩ = o2 a) :
    hiddenAlt cat w b1
      = hidden o0 o1 o2 (fun a k => w ⟨a.val, by omega⟩ k) (fun a k => w ⟨128 + a.val, by omega⟩ k)
          (fun a k => w ⟨128 + 128 + a.val, by omega⟩ k) b1 := by
  funext k
  unfold hiddenAlt hidden
  rw [Cert.ReferenceIdeal.Stages.sum_split3 (A := 128) (B := 128) (C := 128) rfl]
  simp only [h0, h1, h2]
  rw [add_comm _ (b1 k), ← add_assoc, ← add_assoc]

/-- The last layer at a row: the pre-activation clamped below at the zero word, times the weights, plus the bias. -/
def head (h : Fin 128 → EReal) (w2 : Fin 128 → Fin 128 → EReal) (b2 : Fin 128 → EReal) : Fin 128 → EReal :=
  fun j => (∑ k : Fin 128, max (h k) (Ideal.ofBits .f32 0x00000000#32) * w2 k j) + b2 j

end Cert.RowSpec

end
-- ==== Proof.NetSpec.lean ====
/-
  The whole network at one row, over the arrays the kernel's windows hold.

  `rowNet` takes one row of each neighbour mean and of the user features and the weight arrays in the layout the
  kernel stages them in — the neighbour and root weights as `[3, 128, 128]` stacks indexed (relation, input, output), the
  relation biases as `[3, 128]`, the first dense layer's weights as `[384, 128]` (input, output) with the three
  relations' 128 inputs one after the other, the last layer's as `[128, 128]` (input, output) — and returns the output
  row.  `net` is the `[200000, 128]` array whose row `i` is `rowNet` of the rows `i` of the four row inputs.
-/
import proofs.«155005_j74036646248794_1_alg».proof.Proof.RowSpec
import Idealize.ShloMosaic.Lib.ValueIdx

noncomputable section

namespace Cert.NetSpec

open Idealize.ShloMosaic Idealize.ShloMosaic.ValueIdx Cert.RowSpec

/-- The output row from the four input rows and the staged weight arrays. -/
def rowNet (r0 r1 r2 ru : Fin 128 → EReal)
    (WL : (⟨3, ![3, 128, 128]⟩ : Shape).Idx → EReal) (BL : (⟨2, ![3, 128]⟩ : Shape).Idx → EReal)
    (WR : (⟨3, ![3, 128, 128]⟩ : Shape).Idx → EReal) (W1 : (⟨2, ![384, 128]⟩ : Shape).Idx → EReal)
    (B1 : (⟨1, ![128]⟩ : Shape).Idx → EReal) (W2 : (⟨2, ![128, 128]⟩ : Shape).Idx → EReal)
    (B2 : (⟨1, ![128]⟩ : Shape).Idx → EReal) : Fin 128 → EReal :=
  head
    (hidden
      (sage r0 ru (fun k a => WL (ix3 (0 : Fin 3) k a)) (fun k a => WR (ix3 (0 : Fin 3) k a)) (fun a => BL (ix2 (0 : Fin 3) a)))
      (sage r1 ru (fun k a => WL (ix3 (1 : Fin 3) k a)) (fun k a => WR (ix3 (1 : Fin 3) k a)) (fun a => BL (ix2 (1 : Fin 3) a)))
      (sage r2 ru (fun k a => WL (ix3 (2 : Fin 3) k a)) (fun k a => WR (ix3 (2 : Fin 3) k a)) (fun a => BL (ix2 (2 : Fin 3) a)))
      (fun a k => W1 (ix2 (⟨a.val, by omega⟩ : Fin 384) k))
      (fun a k => W1 (ix2 (⟨128 + a.val, by omega⟩ : Fin 384) k))
      (fun a k => W1 (ix2 (⟨128 + 128 + a.val, by omega⟩ : Fin 384) k))
      (fun k => B1 (ix1 k)))
    (fun k j => W2 (ix2 k j)) (fun j => B2 (ix1 j))

/-- The result array: row `i` is `rowNet` of the rows `i` of the means and of the user features. -/
def net (M0 M1 M2 XU : (⟨2, ![200000, 128]⟩ : Shape).Idx → EReal)
    (WL : (⟨3, ![3, 128, 128]⟩ : Shape).Idx → EReal) (BL : (⟨2, ![3, 128]⟩ : Shape).Idx → EReal)
    (WR : (⟨3, ![3, 128, 128]⟩ : Shape).Idx → EReal) (W1 : (⟨2, ![384, 128]⟩ : Shape).Idx → EReal)
    (B1 : (⟨1, ![128]⟩ : Shape).Idx → EReal) (W2 : (⟨2, ![128, 128]⟩ : Shape).Idx → EReal)
    (B2 : (⟨1, ![128]⟩ : Shape).Idx → EReal) : (⟨2, ![200000, 128]⟩ : Shape).Idx → EReal :=
  fun i => rowNet (fun k => M0 (ix2 (i 0) k)) (fun k => M1 (ix2 (i 0) k)) (fun k => M2 (ix2 (i 0) k))
    (fun k => XU (ix2 (i 0) k)) WL BL WR W1 B1 W2 B2 (i 1)

end Cert.NetSpec

end
-- ==== Proof.KernelRow.lean ====
/-
  The kernel body's result at a row and a column.

  The body loads four `[4000, 128]` row blocks (three neighbour means and the user features) and the weights, and
  stores one `[4000, 128]` block.  Changes of float format are the identity on the extended reals and every block
  product is accumulated into zero, so each product read at `(p, q)` is the plain sum `∑ₖ lhs (p, k) · rhs (k, q)`
  (`mm_apply`).  Relation `l` loads slab `l` of each `[3, 128, 128]` weight stack, row `l` of the `[3, 128]` biases and
  rows `128·l … 128·l + 127` of the `[384, 128]` first-layer weights: a load through a unit-stride rectangle reads the
  buffer at the shifted index (`ld_slab*`, `ld_bias*`, `ld_w1_*`).  Chaining the body's named intermediate values at
  an index (`pay4_apply`, `pay6_apply`, `pay8_apply`, `pay1_apply`) gives `body_apply`: the stored block at `(p, q)` is
  the row network of rows `p` of the four row blocks, at column `q`.
-/
import proofs.«155005_j74036646248794_1_alg».proof.Proof.Gen.KernelIdeal.Frame
import proofs.«155005_j74036646248794_1_alg».proof.Proof.LibPlainMatmul
import proofs.«155005_j74036646248794_1_alg».proof.Proof.LibUnitLoad
import proofs.«155005_j74036646248794_1_alg».proof.Proof.NetSpec
import Idealize.ShloMosaic.Lib.ValueLayout
import Idealize.ShloMosaic.Lib.ValueIdx
import Idealize.ShloMosaic.PureOps.Ideal.Laws

noncomputable section

open scoped BigOperators

namespace Cert.KernelIdeal.RowValue

open Cert.KernelIdeal Cert.KernelIdeal.Gen Idealize.ShloMosaic Idealize.ShloMosaic.ValueIdx Cert.RowSpec Cert.NetSpec

theorem lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl

theorem rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block product into the zero accumulator at `(p, q)` is `∑ₖ lhs (p, k) · rhs (k, q)`. -/
theorem mm_apply {φ₁ φ₂ : FTy} (lhs : FVec Ideal S4000x128 φ₁) (rhs : FVec Ideal S128x128 φ₂) (p : Fin 4000) (q : Fin 128) :
    matmul dot_S4000x128_S128x128_S4000x128_1_0_0_1_n_n none lhs rhs (constant S4000x128 .f32 0x00000000#32) (ix2 p q)
      = ∑ k : Fin 128, lhs (ix2 p k) * rhs (ix2 k q) :=
  Cert.Lib.PlainMatmul.matmul_zero_apply dot_S4000x128_S128x128_S4000x128_1_0_0_1_n_n rfl rfl
    (fun i q => lhs_row i q)
    (fun i q => dot_S4000x128_S128x128_S4000x128_1_0_0_1_n_n.lhsIdx_val_of_single rfl i q)
    (fun i q => dot_S4000x128_S128x128_S4000x128_1_0_0_1_n_n.rhsIdx_val_of_single rfl i q)
    (fun i q => rhs_col i q)
    none lhs rhs p q

theorem pay1_apply (v52 : FVec Ideal S4000x128 .f32) (v70 : FVec Ideal S128x128 .bf16) (v71 : FVec Ideal S4000x128 .bf16)
    (v77 : Vec Ideal S128x128 .f32) (v81 : Vec Ideal S128 .f32) (p : Fin 4000) (q : Fin 128) :
    k0_pay1 v52 v70 v71 v77 v81 (ix2 p q)
      = head (fun k => v52 (ix2 p k) + ∑ a : Fin 128, v71 (ix2 p a) * v70 (ix2 a k)) (fun k j => v77 (ix2 k j))
          (fun j => v81 (ix1 j)) q := by
  unfold k0_pay1 head
  simp only [addf_apply]
  rw [mm_apply, broadcastTo_1b_ab_apply, shapeCast_a_1a_apply]
  simp only [truncf_apply, maximumf_apply, addf_apply, broadcast_apply, mm_apply, shapeCast_self, Ideal.ofBits_def]

theorem pay8_apply (v1 : FVec Ideal S4000x128 .bf16) (v7 : FVec Ideal S4000x128 .f32) (v54 v57 : Vec Ideal S1x128x128 .f32)
    (v63 : Vec Ideal S1x128 .f32) (p : Fin 4000) (a : Fin 128) :
    k0_pay8 v1 v7 v54 v57 v63 (ix2 p a)
      = sage (fun k => v7 (ix2 p k)) (fun k => v1 (ix2 p k)) (fun k a => v54 (ix3 (0 : Fin 1) k a))
          (fun k a => v57 (ix3 (0 : Fin 1) k a)) (fun a => v63 (ix2 (0 : Fin 1) a)) a := by
  unfold k0_pay8 sage
  simp only [truncf_apply, addf_apply]
  rw [mm_apply, mm_apply, broadcastTo_1b_ab_apply, shapeCast_a_1a_apply, shapeCast_1a_a_apply]
  simp only [truncf_apply, shapeCast_1ab_ab_apply]

theorem pay4_apply (v0 v2 : Vec Ideal S4000x128 .f32) (v8 : Vec Ideal S128 .f32) (v12 v15 : Vec Ideal S1x128x128 .f32)
    (v21 : Vec Ideal S1x128 .f32) (v26 : Vec Ideal S128x128 .f32) (p : Fin 4000) (q : Fin 128) :
    k0_pay4 v0 v2 v8 v12 v15 v21 v26 (ix2 p q)
      = v8 (ix1 q) + ∑ a : Fin 128,
          sage (fun k => v2 (ix2 p k)) (fun k => v0 (ix2 p k)) (fun k a => v12 (ix3 (0 : Fin 1) k a))
            (fun k a => v15 (ix3 (0 : Fin 1) k a)) (fun a => v21 (ix2 (0 : Fin 1) a)) a * v26 (ix2 a q) := by
  unfold k0_pay4 k0_pay2 sage
  simp only [addf_apply]
  rw [broadcastTo_1b_ab_apply, shapeCast_a_1a_apply, mm_apply]
  simp only [truncf_apply, addf_apply, mm_apply, broadcastTo_1b_ab_apply, shapeCast_a_1a_apply, shapeCast_1a_a_apply,
    shapeCast_1ab_ab_apply, shapeCast_self]

theorem pay6_apply (v1 : FVec Ideal S4000x128 .bf16) (v31 : FVec Ideal S4000x128 .f32) (v32 : FVec Ideal S4000x128 .bf16)
    (v33 v36 : Vec Ideal S1x128x128 .f32) (v42 : Vec Ideal S1x128 .f32) (v47 : Vec Ideal S128x128 .f32)
    (p : Fin 4000) (q : Fin 128) :
    k0_pay6 v1 v31 v32 v33 v36 v42 v47 (ix2 p q)
      = v31 (ix2 p q) + ∑ a : Fin 128,
          sage (fun k => v32 (ix2 p k)) (fun k => v1 (ix2 p k)) (fun k a => v33 (ix3 (0 : Fin 1) k a))
            (fun k a => v36 (ix3 (0 : Fin 1) k a)) (fun a => v42 (ix2 (0 : Fin 1) a)) a * v47 (ix2 a q) := by
  unfold k0_pay6 sage
  simp only [addf_apply]
  rw [mm_apply]
  simp only [truncf_apply, addf_apply, mm_apply, broadcastTo_1b_ab_apply, shapeCast_a_1a_apply, shapeCast_1a_a_apply,
    shapeCast_1ab_ab_apply, shapeCast_self]

/-! ## Loads of one relation's slab, bias row or weight block -/

theorem ld_slab0 (x : Vec Ideal S3x128x128 .f32) (u : Fin 1) (k a : Fin 128) :
    View.ld x r0_2 (ix3 u k a) = x (ix3 (0 : Fin 3) k a) :=
  Cert.Lib.UnitLoad.ld_unit_apply x _ _ _ (ix3 u k a) (ix3 (0 : Fin 3) k a) (fun c => match c with
    | ⟨0, _⟩ => by show 0 = 0 + u.val; omega
    | ⟨1, _⟩ => by show k.val = 0 + k.val; omega
    | ⟨2, _⟩ => by show a.val = 0 + a.val; omega)

theorem ld_slab1 (x : Vec Ideal S3x128x128 .f32) (u : Fin 1) (k a : Fin 128) :
    View.ld x r0_5 (ix3 u k a) = x (ix3 (1 : Fin 3) k a) :=
  Cert.Lib.UnitLoad.ld_unit_apply x _ _ _ (ix3 u k a) (ix3 (1 : Fin 3) k a) (fun c => match c with
    | ⟨0, _⟩ => by show 1 = 1 + u.val; omega
    | ⟨1, _⟩ => by show k.val = 0 + k.val; omega
    | ⟨2, _⟩ => by show a.val = 0 + a.val; omega)

theorem ld_slab2 (x : Vec Ideal S3x128x128 .f32) (u : Fin 1) (k a : Fin 128) :
    View.ld x r0_8 (ix3 u k a) = x (ix3 (2 : Fin 3) k a) :=
  Cert.Lib.UnitLoad.ld_unit_apply x _ _ _ (ix3 u k a) (ix3 (2 : Fin 3) k a) (fun c => match c with
    | ⟨0, _⟩ => by show 2 = 2 + u.val; omega
    | ⟨1, _⟩ => by show k.val = 0 + k.val; omega
    | ⟨2, _⟩ => by show a.val = 0 + a.val; omega)

theorem ld_bias0 (x : Vec Ideal S3x128 .f32) (u : Fin 1) (a : Fin 128) :
    View.ld x r0_3 (ix2 u a) = x (ix2 (0 : Fin 3) a) :=
  Cert.Lib.UnitLoad.ld_unit_apply x _ _ _ (ix2 u a) (ix2 (0 : Fin 3) a) (fun c => match c with
    | ⟨0, _⟩ => by show 0 = 0 + u.val; omega
    | ⟨1, _⟩ => by show a.val = 0 + a.val; omega)

theorem ld_bias1 (x : Vec Ideal S3x128 .f32) (u : Fin 1) (a : Fin 128) :
    View.ld x r0_6 (ix2 u a) = x (ix2 (1 : Fin 3) a) :=
  Cert.Lib.UnitLoad.ld_unit_apply x _ _ _ (ix2 u a) (ix2 (1 : Fin 3) a) (fun c => match c with
    | ⟨0, _⟩ => by show 1 = 1 + u.val; omega
    | ⟨1, _⟩ => by show a.val = 0 + a.val; omega)

theorem ld_bias2 (x : Vec Ideal S3x128 .f32) (u : Fin 1) (a : Fin 128) :
    View.ld x r0_9 (ix2 u a) = x (ix2 (2 : Fin 3) a) :=
  Cert.Lib.UnitLoad.ld_unit_apply x _ _ _ (ix2 u a) (ix2 (2 : Fin 3) a) (fun c => match c with
    | ⟨0, _⟩ => by show 2 = 2 + u.val; omega
    | ⟨1, _⟩ => by show a.val = 0 + a.val; omega)

theorem ld_w1_0 (x : Vec Ideal S384x128 .f32) (a k : Fin 128) :
    View.ld x r0_4 (ix2 a k) = x (ix2 (⟨a.val, by omega⟩ : Fin 384) k) :=
  Cert.Lib.UnitLoad.ld_unit_apply x _ _ _ (ix2 a k) (ix2 (⟨a.val, by omega⟩ : Fin 384) k) (fun c => match c with
    | ⟨0, _⟩ => by show a.val = 0 + a.val; omega
    | ⟨1, _⟩ => by show k.val = 0 + k.val; omega)

theorem ld_w1_1 (x : Vec Ideal S384x128 .f32) (a k : Fin 128) :
    View.ld x r0_7 (ix2 a k) = x (ix2 (⟨128 + a.val, by omega⟩ : Fin 384) k) :=
  Cert.Lib.UnitLoad.ld_unit_apply x _ _ _ (ix2 a k) (ix2 (⟨128 + a.val, by omega⟩ : Fin 384) k) (fun c => match c with
    | ⟨0, _⟩ => by show 128 + a.val = 128 + a.val; rfl
    | ⟨1, _⟩ => by show k.val = 0 + k.val; omega)

theorem ld_w1_2 (x : Vec Ideal S384x128 .f32) (a k : Fin 128) :
    View.ld x r0_10 (ix2 a k) = x (ix2 (⟨128 + 128 + a.val, by omega⟩ : Fin 384) k) :=
  Cert.Lib.UnitLoad.ld_unit_apply x _ _ _ (ix2 a k) (ix2 (⟨128 + 128 + a.val, by omega⟩ : Fin 384) k) (fun c => match c with
    | ⟨0, _⟩ => by show 128 + 128 + a.val = 256 + a.val; omega
    | ⟨1, _⟩ => by show k.val = 0 + k.val; omega)

theorem hz2 : (![0, 0] : Fin 2 → Nat) = fun _ => 0 := funext fun a => by fin_cases a <;> rfl
theorem hz1 : (![0] : Fin 1 → Nat) = fun _ => 0 := funext fun a => by fin_cases a; rfl

theorem slab0_fn (x : Vec Ideal S3x128x128 .f32) :
    (fun (k a : Fin 128) => View.ld x r0_2 (ix3 (0 : Fin 1) k a)) = fun k a => x (ix3 (0 : Fin 3) k a) :=
  funext fun k => funext fun a => ld_slab0 x 0 k a
theorem slab1_fn (x : Vec Ideal S3x128x128 .f32) :
    (fun (k a : Fin 128) => View.ld x r0_5 (ix3 (0 : Fin 1) k a)) = fun k a => x (ix3 (1 : Fin 3) k a) :=
  funext fun k => funext fun a => ld_slab1 x 0 k a
theorem slab2_fn (x : Vec Ideal S3x128x128 .f32) :
    (fun (k a : Fin 128) => View.ld x r0_8 (ix3 (0 : Fin 1) k a)) = fun k a => x (ix3 (2 : Fin 3) k a) :=
  funext fun k => funext fun a => ld_slab2 x 0 k a
theorem bias0_fn (x : Vec Ideal S3x128 .f32) :
    (fun (a : Fin 128) => View.ld x r0_3 (ix2 (0 : Fin 1) a)) = fun a => x (ix2 (0 : Fin 3) a) :=
  funext fun a => ld_bias0 x 0 a
theorem bias1_fn (x : Vec Ideal S3x128 .f32) :
    (fun (a : Fin 128) => View.ld x r0_6 (ix2 (0 : Fin 1) a)) = fun a => x (ix2 (1 : Fin 3) a) :=
  funext fun a => ld_bias1 x 0 a
theorem bias2_fn (x : Vec Ideal S3x128 .f32) :
    (fun (a : Fin 128) => View.ld x r0_9 (ix2 (0 : Fin 1) a)) = fun a => x (ix2 (2 : Fin 3) a) :=
  funext fun a => ld_bias2 x 0 a

/-- What the body leaves in the output block at `(p, q)`: the network's output row from rows `p` of the four row
    blocks and the staged weights, at column `q`. -/
theorem body_apply (x0 x1 x2 x3 : Vec Ideal S4000x128 .f32) (x4 : Vec Ideal S3x128x128 .f32) (x5 : Vec Ideal S3x128 .f32)
    (x6 : Vec Ideal S3x128x128 .f32) (x7 : Vec Ideal S384x128 .f32) (x8 : Vec Ideal S128 .f32)
    (x9 : Vec Ideal S128x128 .f32) (x10 : Vec Ideal S128 .f32) (p : Fin 4000) (q : Fin 128) :
    out0_11 x0 x1 x2 x3 x4 x5 x6 x7 x8 x9 x10 (ix2 p q)
      = rowNet (fun k => x0 (ix2 p k)) (fun k => x1 (ix2 p k)) (fun k => x2 (ix2 p k)) (fun k => x3 (ix2 p k))
          x4 x5 x6 x7 x8 x9 x10 q := by
  unfold out0_11
  rw [View.canon_unit_zero hz2]
  simp only [View.ld_unit_zero (S := S4000x128) hz2, View.ld_unit_zero (S := S128) hz1,
    View.ld_unit_zero (S := S128x128) hz2]
  rw [pay1_apply]
  unfold rowNet
  refine congrArg (fun h => head h _ _ q) (funext fun k => ?_)
  rw [pay6_apply, pay4_apply]
  unfold Cert.RowSpec.hidden
  simp only [pay8_apply, k0_pay2, k0_pay3, k0_pay5, k0_pay7, truncf_apply, shapeCast_self]
  rw [slab0_fn x4, slab0_fn x6, slab1_fn x4, slab1_fn x6, slab2_fn x4, slab2_fn x6, bias0_fn x5, bias1_fn x5, bias2_fn x5]
  refine congrArg₂ (· + ·) (congrArg₂ (· + ·) (congrArg₂ (· + ·) rfl (Finset.sum_congr rfl fun a _ => ?_))
    (Finset.sum_congr rfl fun a _ => ?_)) (Finset.sum_congr rfl fun a _ => ?_)
  · rw [ld_w1_0]
  · rw [ld_w1_1]
  · rw [ld_w1_2]

end Cert.KernelIdeal.RowValue

end
-- ==== Proof.KernelArray.lean ====
/-
  From blocks to the array.

  The grid has 50 points; point `t` stages rows `4000·t … 4000·t + 3999` of each of the four row arrays (the three
  neighbour means and the user features) and of the result, and all of every weight array.  So what a point writes
  back is the network of those rows, the 50 blocks tile the result, and the result array after the run is the
  network of the staged arrays, row by row.

  The staged arrays are what the host operations before the call leave, which include a scatter over 600 000
  edges.  Every block read below is therefore proved for arbitrary contents of the window's array and instantiated
  afterwards, so the staged arrays are never opened here.
-/
import proofs.«155005_j74036646248794_1_alg».proof.Proof.Gen.KernelIdeal.Value
import proofs.«155005_j74036646248794_1_alg».proof.Proof.KernelRow

noncomputable section

namespace Cert.KernelIdeal.ArrayValue

open Cert.KernelIdeal Cert.KernelIdeal.Gen Idealize.ShloMosaic Idealize.ShloMosaic.TcCoe Idealize.SL.Sem
open Idealize.ShloMosaic.ValueIdx Cert.NetSpec Cert.KernelIdeal.RowValue
open Idealize.ShloMosaic.Pipeline (Dat)

variable (m : (ℓ : Loc nD τ sig) → Buf (Elt Ideal) ℓ) (ρ : Dev nD → PrngReg)

/-- The array the result ends as: the network of the arrays the windows stage, as the region finds them. -/
def result (c : Dev nD) : S200000x128.Idx → EReal :=
  net (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))
    (V m c (Pipeline.arrRef spec0 6)) (V m c (Pipeline.arrRef spec0 7)) (V m c (Pipeline.arrRef spec0 8))
    (V m c (Pipeline.arrRef spec0 9)) (V m c (Pipeline.arrRef spec0 10))

theorem result_apply (c : Dev nD) (i : S200000x128.Idx) :
    result m c i
      = rowNet (fun k => V m c (Pipeline.arrRef spec0 0) (ix2 (i 0) k)) (fun k => V m c (Pipeline.arrRef spec0 1) (ix2 (i 0) k))
          (fun k => V m c (Pipeline.arrRef spec0 2) (ix2 (i 0) k)) (fun k => V m c (Pipeline.arrRef spec0 3) (ix2 (i 0) k))
          (V m c (Pipeline.arrRef spec0 4)) (V m c (Pipeline.arrRef spec0 5)) (V m c (Pipeline.arrRef spec0 6))
          (V m c (Pipeline.arrRef spec0 7)) (V m c (Pipeline.arrRef spec0 8)) (V m c (Pipeline.arrRef spec0 9))
          (V m c (Pipeline.arrRef spec0 10)) (i 1) := rfl

/-- A window's block at a point is its array read through the point's rectangle. -/
theorem iblk_def (c : Dev nD) (w : Fin cfg0.W) (t : Fin cfg0.N) :
    iblk m c w t = ((cfg0.win w).blk t).view.read (Elt Ideal) (V m c (Pipeline.arrRef spec0 w)) := rfl

theorem idx_row0 : ∀ t : Fin cfg0.N,
    win0_0.index t (0 : Fin 2) = win0_11.index t (0 : Fin 2) ∧ win0_0.index t (1 : Fin 2) = 0 :=
  (by decide +kernel : ∀ t : Fin grid0.N, _)

/-- Row `p` of window 0's block at point `t`, for ANY contents `A` of its array, is `A`'s row at the output block's
    row offset plus `p`. -/
theorem read_row0 (c : Dev nD) (A : Buf (Elt Ideal) ((c : Thread nD τ).loc (Pipeline.arrRef spec0 0)))
    (t : Fin cfg0.N) (p : Fin 4000) (q k : Fin 128) :
    ((cfg0.win 0).blk t).view.read (Elt Ideal) A (ix2 p k)
      = A (ix2 (((cfg0.win 11).blk t).view.emb (ix2 p q) 0) k) := by
  obtain ⟨f0, f1⟩ := idx_row0 t
  show A (((cfg0.win 0).blk t).view.emb (ix2 p k)) = _
  refine congrArg A (funext fun a => Fin.ext ?_)
  match a with
  | ⟨0, _⟩ => show win0_0.index t (0 : Fin 2) * 4000 + 1 * p.val = win0_11.index t (0 : Fin 2) * 4000 + 1 * p.val; omega
  | ⟨1, _⟩ => show win0_0.index t (1 : Fin 2) * 128 + 1 * k.val = k.val; omega

theorem blk_row0 (c : Dev nD) (t : Fin cfg0.N) (p : Fin 4000) (q k : Fin 128) :
    iblk m c 0 t (ix2 p k)
      = V m c (Pipeline.arrRef spec0 0) (ix2 (((cfg0.win 11).blk t).view.emb (ix2 p q) 0) k) :=
  (congrFun (iblk_def m c 0 t) (ix2 p k)).trans (read_row0 c (V m c (Pipeline.arrRef spec0 0)) t p q k)

theorem idx_row1 : ∀ t : Fin cfg0.N,
    win0_1.index t (0 : Fin 2) = win0_11.index t (0 : Fin 2) ∧ win0_1.index t (1 : Fin 2) = 0 :=
  (by decide +kernel : ∀ t : Fin grid0.N, _)

/-- Row `p` of window 1's block at point `t`, for ANY contents `A` of its array, is `A`'s row at the output block's
    row offset plus `p`. -/
theorem read_row1 (c : Dev nD) (A : Buf (Elt Ideal) ((c : Thread nD τ).loc (Pipeline.arrRef spec0 1)))
    (t : Fin cfg0.N) (p : Fin 4000) (q k : Fin 128) :
    ((cfg0.win 1).blk t).view.read (Elt Ideal) A (ix2 p k)
      = A (ix2 (((cfg0.win 11).blk t).view.emb (ix2 p q) 0) k) := by
  obtain ⟨f0, f1⟩ := idx_row1 t
  show A (((cfg0.win 1).blk t).view.emb (ix2 p k)) = _
  refine congrArg A (funext fun a => Fin.ext ?_)
  match a with
  | ⟨0, _⟩ => show win0_1.index t (0 : Fin 2) * 4000 + 1 * p.val = win0_11.index t (0 : Fin 2) * 4000 + 1 * p.val; omega
  | ⟨1, _⟩ => show win0_1.index t (1 : Fin 2) * 128 + 1 * k.val = k.val; omega

theorem blk_row1 (c : Dev nD) (t : Fin cfg0.N) (p : Fin 4000) (q k : Fin 128) :
    iblk m c 1 t (ix2 p k)
      = V m c (Pipeline.arrRef spec0 1) (ix2 (((cfg0.win 11).blk t).view.emb (ix2 p q) 0) k) :=
  (congrFun (iblk_def m c 1 t) (ix2 p k)).trans (read_row1 c (V m c (Pipeline.arrRef spec0 1)) t p q k)

theorem idx_row2 : ∀ t : Fin cfg0.N,
    win0_2.index t (0 : Fin 2) = win0_11.index t (0 : Fin 2) ∧ win0_2.index t (1 : Fin 2) = 0 :=
  (by decide +kernel : ∀ t : Fin grid0.N, _)

/-- Row `p` of window 2's block at point `t`, for ANY contents `A` of its array, is `A`'s row at the output block's
    row offset plus `p`. -/
theorem read_row2 (c : Dev nD) (A : Buf (Elt Ideal) ((c : Thread nD τ).loc (Pipeline.arrRef spec0 2)))
    (t : Fin cfg0.N) (p : Fin 4000) (q k : Fin 128) :
    ((cfg0.win 2).blk t).view.read (Elt Ideal) A (ix2 p k)
      = A (ix2 (((cfg0.win 11).blk t).view.emb (ix2 p q) 0) k) := by
  obtain ⟨f0, f1⟩ := idx_row2 t
  show A (((cfg0.win 2).blk t).view.emb (ix2 p k)) = _
  refine congrArg A (funext fun a => Fin.ext ?_)
  match a with
  | ⟨0, _⟩ => show win0_2.index t (0 : Fin 2) * 4000 + 1 * p.val = win0_11.index t (0 : Fin 2) * 4000 + 1 * p.val; omega
  | ⟨1, _⟩ => show win0_2.index t (1 : Fin 2) * 128 + 1 * k.val = k.val; omega

theorem blk_row2 (c : Dev nD) (t : Fin cfg0.N) (p : Fin 4000) (q k : Fin 128) :
    iblk m c 2 t (ix2 p k)
      = V m c (Pipeline.arrRef spec0 2) (ix2 (((cfg0.win 11).blk t).view.emb (ix2 p q) 0) k) :=
  (congrFun (iblk_def m c 2 t) (ix2 p k)).trans (read_row2 c (V m c (Pipeline.arrRef spec0 2)) t p q k)

theorem idx_row3 : ∀ t : Fin cfg0.N,
    win0_3.index t (0 : Fin 2) = win0_11.index t (0 : Fin 2) ∧ win0_3.index t (1 : Fin 2) = 0 :=
  (by decide +kernel : ∀ t : Fin grid0.N, _)

/-- Row `p` of window 3's block at point `t`, for ANY contents `A` of its array, is `A`'s row at the output block's
    row offset plus `p`. -/
theorem read_row3 (c : Dev nD) (A : Buf (Elt Ideal) ((c : Thread nD τ).loc (Pipeline.arrRef spec0 3)))
    (t : Fin cfg0.N) (p : Fin 4000) (q k : Fin 128) :
    ((cfg0.win 3).blk t).view.read (Elt Ideal) A (ix2 p k)
      = A (ix2 (((cfg0.win 11).blk t).view.emb (ix2 p q) 0) k) := by
  obtain ⟨f0, f1⟩ := idx_row3 t
  show A (((cfg0.win 3).blk t).view.emb (ix2 p k)) = _
  refine congrArg A (funext fun a => Fin.ext ?_)
  match a with
  | ⟨0, _⟩ => show win0_3.index t (0 : Fin 2) * 4000 + 1 * p.val = win0_11.index t (0 : Fin 2) * 4000 + 1 * p.val; omega
  | ⟨1, _⟩ => show win0_3.index t (1 : Fin 2) * 128 + 1 * k.val = k.val; omega

theorem blk_row3 (c : Dev nD) (t : Fin cfg0.N) (p : Fin 4000) (q k : Fin 128) :
    iblk m c 3 t (ix2 p k)
      = V m c (Pipeline.arrRef spec0 3) (ix2 (((cfg0.win 11).blk t).view.emb (ix2 p q) 0) k) :=
  (congrFun (iblk_def m c 3 t) (ix2 p k)).trans (read_row3 c (V m c (Pipeline.arrRef spec0 3)) t p q k)

theorem idx_w4 : ∀ t : Fin cfg0.N, win0_4.index t (0 : Fin 3) = 0 ∧ win0_4.index t (1 : Fin 3) = 0 ∧ win0_4.index t (2 : Fin 3) = 0 :=
  (by decide +kernel : ∀ t : Fin grid0.N, _)

/-- Window 4's block at every point, for ANY contents `A` of its array, is all of `A`. -/
theorem read_w4 (c : Dev nD) (A : Buf (Elt Ideal) ((c : Thread nD τ).loc (Pipeline.arrRef spec0 4))) (t : Fin cfg0.N) :
    ((cfg0.win 4).blk t).view.read (Elt Ideal) A = A := funext fun z => by
  obtain ⟨f0, f1, f2⟩ := idx_w4 t
  show A (((cfg0.win 4).blk t).view.emb z) = A z
  refine congrArg A (funext fun a => Fin.ext ?_)
  match a with
  | ⟨0, _⟩ => show win0_4.index t (0 : Fin 3) * 3 + 1 * (z 0).val = (z 0).val; omega
  | ⟨1, _⟩ => show win0_4.index t (1 : Fin 3) * 128 + 1 * (z 1).val = (z 1).val; omega
  | ⟨2, _⟩ => show win0_4.index t (2 : Fin 3) * 128 + 1 * (z 2).val = (z 2).val; omega

theorem blk_w4 (c : Dev nD) (t : Fin cfg0.N) : iblk m c 4 t = V m c (Pipeline.arrRef spec0 4) :=
  (iblk_def m c 4 t).trans (read_w4 c (V m c (Pipeline.arrRef spec0 4)) t)

theorem idx_w5 : ∀ t : Fin cfg0.N, win0_5.index t (0 : Fin 2) = 0 ∧ win0_5.index t (1 : Fin 2) = 0 :=
  (by decide +kernel : ∀ t : Fin grid0.N, _)

/-- Window 5's block at every point, for ANY contents `A` of its array, is all of `A`. -/
theorem read_w5 (c : Dev nD) (A : Buf (Elt Ideal) ((c : Thread nD τ).loc (Pipeline.arrRef spec0 5))) (t : Fin cfg0.N) :
    ((cfg0.win 5).blk t).view.read (Elt Ideal) A = A := funext fun z => by
  obtain ⟨f0, f1⟩ := idx_w5 t
  show A (((cfg0.win 5).blk t).view.emb z) = A z
  refine congrArg A (funext fun a => Fin.ext ?_)
  match a with
  | ⟨0, _⟩ => show win0_5.index t (0 : Fin 2) * 3 + 1 * (z 0).val = (z 0).val; omega
  | ⟨1, _⟩ => show win0_5.index t (1 : Fin 2) * 128 + 1 * (z 1).val = (z 1).val; omega

theorem blk_w5 (c : Dev nD) (t : Fin cfg0.N) : iblk m c 5 t = V m c (Pipeline.arrRef spec0 5) :=
  (iblk_def m c 5 t).trans (read_w5 c (V m c (Pipeline.arrRef spec0 5)) t)

theorem idx_w6 : ∀ t : Fin cfg0.N, win0_6.index t (0 : Fin 3) = 0 ∧ win0_6.index t (1 : Fin 3) = 0 ∧ win0_6.index t (2 : Fin 3) = 0 :=
  (by decide +kernel : ∀ t : Fin grid0.N, _)

/-- Window 6's block at every point, for ANY contents `A` of its array, is all of `A`. -/
theorem read_w6 (c : Dev nD) (A : Buf (Elt Ideal) ((c : Thread nD τ).loc (Pipeline.arrRef spec0 6))) (t : Fin cfg0.N) :
    ((cfg0.win 6).blk t).view.read (Elt Ideal) A = A := funext fun z => by
  obtain ⟨f0, f1, f2⟩ := idx_w6 t
  show A (((cfg0.win 6).blk t).view.emb z) = A z
  refine congrArg A (funext fun a => Fin.ext ?_)
  match a with
  | ⟨0, _⟩ => show win0_6.index t (0 : Fin 3) * 3 + 1 * (z 0).val = (z 0).val; omega
  | ⟨1, _⟩ => show win0_6.index t (1 : Fin 3) * 128 + 1 * (z 1).val = (z 1).val; omega
  | ⟨2, _⟩ => show win0_6.index t (2 : Fin 3) * 128 + 1 * (z 2).val = (z 2).val; omega

theorem blk_w6 (c : Dev nD) (t : Fin cfg0.N) : iblk m c 6 t = V m c (Pipeline.arrRef spec0 6) :=
  (iblk_def m c 6 t).trans (read_w6 c (V m c (Pipeline.arrRef spec0 6)) t)

theorem idx_w7 : ∀ t : Fin cfg0.N, win0_7.index t (0 : Fin 2) = 0 ∧ win0_7.index t (1 : Fin 2) = 0 :=
  (by decide +kernel : ∀ t : Fin grid0.N, _)

/-- Window 7's block at every point, for ANY contents `A` of its array, is all of `A`. -/
theorem read_w7 (c : Dev nD) (A : Buf (Elt Ideal) ((c : Thread nD τ).loc (Pipeline.arrRef spec0 7))) (t : Fin cfg0.N) :
    ((cfg0.win 7).blk t).view.read (Elt Ideal) A = A := funext fun z => by
  obtain ⟨f0, f1⟩ := idx_w7 t
  show A (((cfg0.win 7).blk t).view.emb z) = A z
  refine congrArg A (funext fun a => Fin.ext ?_)
  match a with
  | ⟨0, _⟩ => show win0_7.index t (0 : Fin 2) * 384 + 1 * (z 0).val = (z 0).val; omega
  | ⟨1, _⟩ => show win0_7.index t (1 : Fin 2) * 128 + 1 * (z 1).val = (z 1).val; omega

theorem blk_w7 (c : Dev nD) (t : Fin cfg0.N) : iblk m c 7 t = V m c (Pipeline.arrRef spec0 7) :=
  (iblk_def m c 7 t).trans (read_w7 c (V m c (Pipeline.arrRef spec0 7)) t)

theorem idx_w8 : ∀ t : Fin cfg0.N, win0_8.index t (0 : Fin 1) = 0 :=
  (by decide +kernel : ∀ t : Fin grid0.N, _)

/-- Window 8's block at every point, for ANY contents `A` of its array, is all of `A`. -/
theorem read_w8 (c : Dev nD) (A : Buf (Elt Ideal) ((c : Thread nD τ).loc (Pipeline.arrRef spec0 8))) (t : Fin cfg0.N) :
    ((cfg0.win 8).blk t).view.read (Elt Ideal) A = A := funext fun z => by
  have f0 := idx_w8 t
  show A (((cfg0.win 8).blk t).view.emb z) = A z
  refine congrArg A (funext fun a => Fin.ext ?_)
  match a with
  | ⟨0, _⟩ => show win0_8.index t (0 : Fin 1) * 128 + 1 * (z 0).val = (z 0).val; omega

theorem blk_w8 (c : Dev nD) (t : Fin cfg0.N) : iblk m c 8 t = V m c (Pipeline.arrRef spec0 8) :=
  (iblk_def m c 8 t).trans (read_w8 c (V m c (Pipeline.arrRef spec0 8)) t)

theorem idx_w9 : ∀ t : Fin cfg0.N, win0_9.index t (0 : Fin 2) = 0 ∧ win0_9.index t (1 : Fin 2) = 0 :=
  (by decide +kernel : ∀ t : Fin grid0.N, _)

/-- Window 9's block at every point, for ANY contents `A` of its array, is all of `A`. -/
theorem read_w9 (c : Dev nD) (A : Buf (Elt Ideal) ((c : Thread nD τ).loc (Pipeline.arrRef spec0 9))) (t : Fin cfg0.N) :
    ((cfg0.win 9).blk t).view.read (Elt Ideal) A = A := funext fun z => by
  obtain ⟨f0, f1⟩ := idx_w9 t
  show A (((cfg0.win 9).blk t).view.emb z) = A z
  refine congrArg A (funext fun a => Fin.ext ?_)
  match a with
  | ⟨0, _⟩ => show win0_9.index t (0 : Fin 2) * 128 + 1 * (z 0).val = (z 0).val; omega
  | ⟨1, _⟩ => show win0_9.index t (1 : Fin 2) * 128 + 1 * (z 1).val = (z 1).val; omega

theorem blk_w9 (c : Dev nD) (t : Fin cfg0.N) : iblk m c 9 t = V m c (Pipeline.arrRef spec0 9) :=
  (iblk_def m c 9 t).trans (read_w9 c (V m c (Pipeline.arrRef spec0 9)) t)

theorem idx_w10 : ∀ t : Fin cfg0.N, win0_10.index t (0 : Fin 1) = 0 :=
  (by decide +kernel : ∀ t : Fin grid0.N, _)

/-- Window 10's block at every point, for ANY contents `A` of its array, is all of `A`. -/
theorem read_w10 (c : Dev nD) (A : Buf (Elt Ideal) ((c : Thread nD τ).loc (Pipeline.arrRef spec0 10))) (t : Fin cfg0.N) :
    ((cfg0.win 10).blk t).view.read (Elt Ideal) A = A := funext fun z => by
  have f0 := idx_w10 t
  show A (((cfg0.win 10).blk t).view.emb z) = A z
  refine congrArg A (funext fun a => Fin.ext ?_)
  match a with
  | ⟨0, _⟩ => show win0_10.index t (0 : Fin 1) * 128 + 1 * (z 0).val = (z 0).val; omega

theorem blk_w10 (c : Dev nD) (t : Fin cfg0.N) : iblk m c 10 t = V m c (Pipeline.arrRef spec0 10) :=
  (iblk_def m c 10 t).trans (read_w10 c (V m c (Pipeline.arrRef spec0 10)) t)

theorem idx_out1 : ∀ t : Fin cfg0.N, win0_11.index t (1 : Fin 2) = 0 :=
  (by decide +kernel : ∀ t : Fin grid0.N, _)

theorem idx_onto : ∀ q0 : Fin 50, ∃ t : Fin cfg0.N, win0_11.index t = ![q0.val, 0] :=
  (by decide +kernel : ∀ q0 : Fin 50, ∃ t : Fin grid0.N, win0_11.index t = ![q0.val, 0])

/-- The column of an output block's index is the array's column. -/
theorem blk_col (t : Fin cfg0.N) (p : Fin 4000) (q : Fin 128) : ((cfg0.win 11).blk t).view.emb (ix2 p q) 1 = q := by
  have fo1 := idx_out1 t
  exact Fin.ext (by show win0_11.index t (1 : Fin 2) * 128 + 1 * q.val = q.val; omega)

/-- Two row networks are equal when their rows, weights and columns are. -/
theorem rowNet_congr {r0 r0' r1 r1' r2 r2' ru ru' : Fin 128 → EReal}
    {WL WL' : (⟨3, ![3, 128, 128]⟩ : Shape).Idx → EReal} {BL BL' : (⟨2, ![3, 128]⟩ : Shape).Idx → EReal}
    {WR WR' : (⟨3, ![3, 128, 128]⟩ : Shape).Idx → EReal} {W1 W1' : (⟨2, ![384, 128]⟩ : Shape).Idx → EReal}
    {B1 B1' : (⟨1, ![128]⟩ : Shape).Idx → EReal} {W2 W2' : (⟨2, ![128, 128]⟩ : Shape).Idx → EReal}
    {B2 B2' : (⟨1, ![128]⟩ : Shape).Idx → EReal} {q q' : Fin 128}
    (h0 : r0 = r0') (h1 : r1 = r1') (h2 : r2 = r2') (hu : ru = ru') (hWL : WL = WL') (hBL : BL = BL') (hWR : WR = WR')
    (hW1 : W1 = W1') (hB1 : B1 = B1') (hW2 : W2 = W2') (hB2 : B2 = B2') (hq : q = q') :
    rowNet r0 r1 r2 ru WL BL WR W1 B1 W2 B2 q = rowNet r0' r1' r2' ru' WL' BL' WR' W1' B1' W2' B2' q' := by
  subst h0 h1 h2 hu hWL hBL hWR hW1 hB1 hW2 hB2 hq
  rfl

/-- What point `t` writes back, at `(p, q)`, is the body's result of the point's input blocks. -/
theorem flushed_apply (c : Dev nD) (t : Fin cfg0.N) (p : Fin 4000) (q : Fin 128) :
    (dats m 0 c).flushed 11 t (ix2 p q)
      = out0_11 (iblk m c 0 t) (iblk m c 1 t) (iblk m c 2 t) (iblk m c 3 t) (iblk m c 4 t) (iblk m c 5 t) (iblk m c 6 t)
          (iblk m c 7 t) (iblk m c 8 t) (iblk m c 9 t) (iblk m c 10 t) (ix2 p q) := by
  rw [Cert.KernelIdeal.Value.flushed11]
  rfl

/-- Any array read through the output window's block at `(p, q)` is the array at the block's index there. -/
theorem read_out (c : Dev nD) (A : Buf (Elt Ideal) ((c : Thread nD τ).loc (Pipeline.arrRef spec0 11)))
    (t : Fin cfg0.N) (p : Fin 4000) (q : Fin 128) :
    ((cfg0.win 11).blk t).view.read (Elt Ideal) A (ix2 p q) = A (((cfg0.win 11).blk t).view.emb (ix2 p q)) := rfl

/-- What point `t` writes back is block `t` of the network of the staged arrays. -/
theorem flushed_eq (c : Dev nD) (t : Fin cfg0.N) :
    (dats m 0 c).flushed 11 t = ((cfg0.win 11).blk t).view.read (Elt Ideal) (result m c) := by
  funext y
  obtain ⟨p, q, rfl⟩ : ∃ (p : Fin 4000) (q : Fin 128), y = ix2 p q := ⟨y 0, y 1, eq_ix2 y⟩
  refine (flushed_apply m c t p q).trans ?_
  refine Eq.trans ?_ (read_out c (result m c) t p q).symm
  refine (body_apply (iblk m c 0 t) (iblk m c 1 t) (iblk m c 2 t) (iblk m c 3 t) (iblk m c 4 t) (iblk m c 5 t) (iblk m c 6 t)
      (iblk m c 7 t) (iblk m c 8 t) (iblk m c 9 t) (iblk m c 10 t) p q).trans ?_
  refine (rowNet_congr (funext (blk_row0 m c t p q)) (funext (blk_row1 m c t p q)) (funext (blk_row2 m c t p q))
    (funext (blk_row3 m c t p q)) (blk_w4 m c t) (blk_w5 m c t) (blk_w6 m c t) (blk_w7 m c t) (blk_w8 m c t)
    (blk_w9 m c t) (blk_w10 m c t) (blk_col t p q).symm).trans ?_
  exact (result_apply m c (((cfg0.win 11).blk t).view.emb (ix2 p q))).symm

/-- An index of the result array is in point `t`'s block iff each coordinate is in the block's range on its axis. -/
theorem mem_blk (t : Fin cfg0.N) (i : S200000x128.Idx) :
    i ∈ ((cfg0.win 11).blk t).view.set ↔ ∀ a : Fin 2, win0_11.index t a * S4000x128.size a ≤ (i a).val
      ∧ (i a).val < win0_11.index t a * S4000x128.size a + S4000x128.size a := by
  show i ∈ ((View.whole main_v61).slice (win0_11.rect t)).set ↔ _
  rw [View.set_slice_whole, Rect.mem_set_unit]
  exact Iff.rfl

/-- Every row of the result lies in the block of the point `row / 4000`. -/
theorem cover (i : S200000x128.Idx) :
    ∃ t : Fin cfg0.N, (cfg0.win 11).flush t = true ∧ i ∈ ((cfg0.win 11).blk t).view.set := by
  have hi0 : (i 0).val < 200000 := (i 0).isLt
  have hi1 : (i 1).val < 128 := (i 1).isLt
  obtain ⟨t, ht⟩ := idx_onto ⟨(i 0).val / 4000, by omega⟩
  have q0 : win0_11.index t (0 : Fin 2) = (i 0).val / 4000 := congrFun ht 0
  have q1 : win0_11.index t (1 : Fin 2) = 0 := congrFun ht 1
  refine ⟨t, flush0_11 t, ?_⟩
  rw [mem_blk]
  intro a
  match a with
  | ⟨0, _⟩ => show win0_11.index t (0 : Fin 2) * 4000 ≤ (i 0).val ∧ (i 0).val < win0_11.index t (0 : Fin 2) * 4000 + 4000; omega
  | ⟨1, _⟩ => show win0_11.index t (1 : Fin 2) * 128 ≤ (i 1).val ∧ (i 1).val < win0_11.index t (1 : Fin 2) * 128 + 128; omega

/-- After the run the result array is the network of the staged arrays. -/
theorem final (c : Dev nD) : (dats m 0 c).arrAt 11 cfg0.N = result m c :=
  (dats m 0 c).arrAt_eq_of_cover 11 (result m c) (fun t _ => flushed_eq m c t) cover

end Cert.KernelIdeal.ArrayValue

end
-- ==== Proof.KernelHost.lean ====
/-
  What the kernel's windows stage, in terms of the arguments.

  Before the call the host computes, per relation, the mean of the neighbours' features — a gather of the source rows
  along the edges, a scatter-add of them and of ones into the destination rows, a clamp of the counts below at one
  and a division — and transposes the weight stacks and the two dense layers' weights.  The three means are the
  very operations the reference applies to the same arguments, so they are identified with the reference's stages
  without being opened: the scatter and the gather are kept irreducible here.
-/
import proofs.«155005_j74036646248794_1_alg».proof.Proof.Gen.KernelIdeal.Frame
import proofs.«155005_j74036646248794_1_alg».proof.Proof.Gen.ReferenceIdeal.Read
import Idealize.ShloMosaic.Lib.StableHlo.Run

noncomputable section

namespace Cert.KernelIdeal.HostValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

attribute [local irreducible] Host.scatterAdd Host.gather

/-- The stack of neighbour weights, each matrix transposed. -/
theorem staged_wl (c : Dev nD) :
    V m c main_v57 = transpose S3x128x128 [0, 2, 1] (m ((c : Thread nD τ).loc main_arg9)) transposes_S3x128x128_S3x128x128_0_2_1 := by
  dsimp only [V, hostOps0]
  after_results_simp

/-- The stack of root weights, each matrix transposed. -/
theorem staged_wr (c : Dev nD) :
    V m c main_v58 = transpose S3x128x128 [0, 2, 1] (m ((c : Thread nD τ).loc main_arg11)) transposes_S3x128x128_S3x128x128_0_2_1 := by
  dsimp only [V, hostOps0]
  after_results_simp

/-- The first dense layer's weights, transposed. -/
theorem staged_w1 (c : Dev nD) :
    V m c main_v59 = transpose S384x128 [1, 0] (m ((c : Thread nD τ).loc main_arg12)) transposes_S128x384_S384x128_1_0 := by
  dsimp only [V, hostOps0]
  after_results_simp

/-- The last dense layer's weights, transposed. -/
theorem staged_w2 (c : Dev nD) :
    V m c main_v60 = transpose S128x128 [1, 0] (m ((c : Thread nD τ).loc main_arg14)) transposes_S128x128_S128x128_1_0 := by
  dsimp only [V, hostOps0]
  after_results_simp

/-- The mean of the transaction neighbours' features, as the reference computes it from the same arguments. -/
theorem staged_mean0 (c : Dev nD) :
    V m c main_v18 = Cert.ReferenceIdeal.Read.val_main_v24 (F := Ideal) (m ((c : Thread nD τ).loc main_arg1)) (m ((c : Thread nD τ).loc main_arg3)) (m ((c : Thread nD τ).loc main_arg4)) := by
  dsimp only [V, hostOps0]
  after_results_simp <;> rfl

/-- The mean of the device neighbours' features, as the reference computes it from the same arguments. -/
theorem staged_mean1 (c : Dev nD) :
    V m c main_v37 = Cert.ReferenceIdeal.Read.val_main_v57 (F := Ideal) (m ((c : Thread nD τ).loc main_arg2)) (m ((c : Thread nD τ).loc main_arg5)) (m ((c : Thread nD τ).loc main_arg6)) := by
  dsimp only [V, hostOps0]
  after_results_simp <;> rfl

/-- The mean of the user neighbours' features, as the reference computes it from the same arguments. -/
theorem staged_mean2 (c : Dev nD) :
    V m c main_v56 = Cert.ReferenceIdeal.Read.val_main_v90 (F := Ideal) (m ((c : Thread nD τ).loc main_arg0)) (m ((c : Thread nD τ).loc main_arg7)) (m ((c : Thread nD τ).loc main_arg8)) := by
  dsimp only [V, hostOps0]
  after_results_simp <;> rfl

end Cert.KernelIdeal.HostValue

end
-- ==== Proof.RefStages.lean ====
/-
  The reference's stages read at a row and a column.

  The reference slices one relation's weights out of the `[3, 128, 128]` stacks, reshapes and transposes them, and
  multiplies; it broadcasts bias rows down the 200 000 rows; it joins the three relations' outputs along the feature
  axis and contracts the 384 features with the transposed first-layer weights.  Each lemma here reads one such stage at
  explicit coordinates.  The two contractions are stated for arbitrary operand arrays, so that the neighbour means
  (gathers and scatters over 600 000 edges) stay unopened.
-/
import proofs.«155005_j74036646248794_1_alg».proof.Proof.Gen.ReferenceIdeal.Read
import proofs.«155005_j74036646248794_1_alg».proof.Proof.LibSplitConcat
import proofs.«155005_j74036646248794_1_alg».proof.Proof.RowSpec
import Idealize.ShloMosaic.Lib.ValueLayout

noncomputable section

open scoped BigOperators

namespace Cert.ReferenceIdeal.Stages

open Cert.ReferenceIdeal Cert.ReferenceIdeal.Gen Cert.ReferenceIdeal.Read Idealize.ShloMosaic Idealize.ShloMosaic.ValueIdx

theorem dg128_l0 (i : S200000x128.Idx) (q : dot_S200000x128_S128x128_S200000x128_1_0_0_1_n_n.contr.Idx) : (dot_S200000x128_S128x128_S200000x128_1_0_0_1_n_n.lhsIdx i q 0).val = (i 0).val := by
  unfold DotDims.lhsIdx
  rw [dif_neg (show ¬(0 : Fin S200000x128.rank) ∈ dot_S200000x128_S128x128_S200000x128_1_0_0_1_n_n.lhsBatch by decide), dif_pos (show (0 : Fin S200000x128.rank) ∈ dot_S200000x128_S128x128_S200000x128_1_0_0_1_n_n.lhsNonContracting by decide)]
  rfl

theorem dg128_r1 (i : S200000x128.Idx) (q : dot_S200000x128_S128x128_S200000x128_1_0_0_1_n_n.contr.Idx) : (dot_S200000x128_S128x128_S200000x128_1_0_0_1_n_n.rhsIdx i q 1).val = (i 1).val := by
  unfold DotDims.rhsIdx
  rw [dif_neg (show ¬(1 : Fin S128x128.rank) ∈ dot_S200000x128_S128x128_S200000x128_1_0_0_1_n_n.rhsBatch by decide), dif_pos (show (1 : Fin S128x128.rank) ∈ dot_S200000x128_S128x128_S200000x128_1_0_0_1_n_n.rhsNonContracting by decide)]
  rfl

/-- A `[200000, 128] × [128, 128]` host contraction at `(i, o)` is `∑ₖ M (i, k) · W (k, o)`, for any operands. -/
theorem dg128_apply (M : FVec Ideal S200000x128 .f32) (W : FVec Ideal S128x128 .f32)
    (i : Fin 200000) (o : Fin 128) :
    Host.dotGeneral (F := Ideal) dot_S200000x128_S128x128_S200000x128_1_0_0_1_n_n none M W (ix2 i o) = ∑ k : Fin 128, M (ix2 i k) * W (ix2 k o) := by
  simp only [Host.dotGeneral]
  rw [Ideal.dotGeneral_apply, ← Equiv.sum_comp (ValueIdx.contrEquiv1 dot_S200000x128_S128x128_S200000x128_1_0_0_1_n_n 128 rfl rfl).symm]
  refine Finset.sum_congr rfl fun k _ => ?_
  have hk := ValueIdx.contrEquiv1_symm_val dot_S200000x128_S128x128_S200000x128_1_0_0_1_n_n 128 rfl rfl k
  have el : dot_S200000x128_S128x128_S200000x128_1_0_0_1_n_n.lhsIdx (ix2 i o) ((ValueIdx.contrEquiv1 dot_S200000x128_S128x128_S200000x128_1_0_0_1_n_n 128 rfl rfl).symm k) = ix2 i k := funext fun a => Fin.ext (by
    match a with
    | ⟨0, _⟩ => exact dg128_l0 _ _
    | ⟨1, _⟩ => exact (dot_S200000x128_S128x128_S200000x128_1_0_0_1_n_n.lhsIdx_val_of_single rfl _ _).trans hk)
  have er : dot_S200000x128_S128x128_S200000x128_1_0_0_1_n_n.rhsIdx (ix2 i o) ((ValueIdx.contrEquiv1 dot_S200000x128_S128x128_S200000x128_1_0_0_1_n_n 128 rfl rfl).symm k) = ix2 k o := funext fun a => Fin.ext (by
    match a with
    | ⟨0, _⟩ => exact (dot_S200000x128_S128x128_S200000x128_1_0_0_1_n_n.rhsIdx_val_of_single rfl _ _).trans hk
    | ⟨1, _⟩ => exact dg128_r1 _ _)
  rw [el, er]

theorem dg384_l0 (i : S200000x128.Idx) (q : dot_S200000x384_S384x128_S200000x128_1_0_0_1_n_n.contr.Idx) : (dot_S200000x384_S384x128_S200000x128_1_0_0_1_n_n.lhsIdx i q 0).val = (i 0).val := by
  unfold DotDims.lhsIdx
  rw [dif_neg (show ¬(0 : Fin S200000x384.rank) ∈ dot_S200000x384_S384x128_S200000x128_1_0_0_1_n_n.lhsBatch by decide), dif_pos (show (0 : Fin S200000x384.rank) ∈ dot_S200000x384_S384x128_S200000x128_1_0_0_1_n_n.lhsNonContracting by decide)]
  rfl

theorem dg384_r1 (i : S200000x128.Idx) (q : dot_S200000x384_S384x128_S200000x128_1_0_0_1_n_n.contr.Idx) : (dot_S200000x384_S384x128_S200000x128_1_0_0_1_n_n.rhsIdx i q 1).val = (i 1).val := by
  unfold DotDims.rhsIdx
  rw [dif_neg (show ¬(1 : Fin S384x128.rank) ∈ dot_S200000x384_S384x128_S200000x128_1_0_0_1_n_n.rhsBatch by decide), dif_pos (show (1 : Fin S384x128.rank) ∈ dot_S200000x384_S384x128_S200000x128_1_0_0_1_n_n.rhsNonContracting by decide)]
  rfl

/-- A `[200000, 384] × [384, 128]` host contraction at `(i, o)` is `∑ₖ M (i, k) · W (k, o)`, for any operands. -/
theorem dg384_apply (M : FVec Ideal S200000x384 .f32) (W : FVec Ideal S384x128 .f32)
    (i : Fin 200000) (o : Fin 128) :
    Host.dotGeneral (F := Ideal) dot_S200000x384_S384x128_S200000x128_1_0_0_1_n_n none M W (ix2 i o) = ∑ k : Fin 384, M (ix2 i k) * W (ix2 k o) := by
  simp only [Host.dotGeneral]
  rw [Ideal.dotGeneral_apply, ← Equiv.sum_comp (ValueIdx.contrEquiv1 dot_S200000x384_S384x128_S200000x128_1_0_0_1_n_n 384 rfl rfl).symm]
  refine Finset.sum_congr rfl fun k _ => ?_
  have hk := ValueIdx.contrEquiv1_symm_val dot_S200000x384_S384x128_S200000x128_1_0_0_1_n_n 384 rfl rfl k
  have el : dot_S200000x384_S384x128_S200000x128_1_0_0_1_n_n.lhsIdx (ix2 i o) ((ValueIdx.contrEquiv1 dot_S200000x384_S384x128_S200000x128_1_0_0_1_n_n 384 rfl rfl).symm k) = ix2 i k := funext fun a => Fin.ext (by
    match a with
    | ⟨0, _⟩ => exact dg384_l0 _ _
    | ⟨1, _⟩ => exact (dot_S200000x384_S384x128_S200000x128_1_0_0_1_n_n.lhsIdx_val_of_single rfl _ _).trans hk)
  have er : dot_S200000x384_S384x128_S200000x128_1_0_0_1_n_n.rhsIdx (ix2 i o) ((ValueIdx.contrEquiv1 dot_S200000x384_S384x128_S200000x128_1_0_0_1_n_n 384 rfl rfl).symm k) = ix2 k o := funext fun a => Fin.ext (by
    match a with
    | ⟨0, _⟩ => exact (dot_S200000x384_S384x128_S200000x128_1_0_0_1_n_n.rhsIdx_val_of_single rfl _ _).trans hk
    | ⟨1, _⟩ => exact dg384_r1 _ _)
  rw [el, er]

/-! ## One relation's weights, transposed, and its bias row broadcast -/

theorem wl0_apply (x9 : (⟨S3x128x128, .f32⟩ : BufTy).Contents (Elt Ideal)) (k a : Fin 128) :
    val_main_v25 (F := Ideal) x9 (ix2 k a) = x9 (ix3 (0 : Fin 3) a k) := by
  rw [val_main_v25_apply, val_main_v1_apply, val_main_v0_apply]
  refine congrArg x9 (funext fun c => Fin.ext ?_)
  have ha := a.isLt
  have hk := k.isLt
  match c with
  | ⟨0, _⟩ => rfl
  | ⟨1, _⟩ => show (a.val * 128 + k.val) / 128 % 128 = a.val; omega
  | ⟨2, _⟩ => show (a.val * 128 + k.val) % 128 = k.val; omega

theorem wr0_apply (x11 : (⟨S3x128x128, .f32⟩ : BufTy).Contents (Elt Ideal)) (k a : Fin 128) :
    val_main_v30 (F := Ideal) x11 (ix2 k a) = x11 (ix3 (0 : Fin 3) a k) := by
  rw [val_main_v30_apply, val_main_v5_apply, val_main_v4_apply]
  refine congrArg x11 (funext fun c => Fin.ext ?_)
  have ha := a.isLt
  have hk := k.isLt
  match c with
  | ⟨0, _⟩ => rfl
  | ⟨1, _⟩ => show (a.val * 128 + k.val) / 128 % 128 = a.val; omega
  | ⟨2, _⟩ => show (a.val * 128 + k.val) % 128 = k.val; omega

theorem wl1_apply (x9 : (⟨S3x128x128, .f32⟩ : BufTy).Contents (Elt Ideal)) (k a : Fin 128) :
    val_main_v58 (F := Ideal) x9 (ix2 k a) = x9 (ix3 (1 : Fin 3) a k) := by
  rw [val_main_v58_apply, val_main_v34_apply, val_main_v33_apply]
  refine congrArg x9 (funext fun c => Fin.ext ?_)
  have ha := a.isLt
  have hk := k.isLt
  match c with
  | ⟨0, _⟩ => rfl
  | ⟨1, _⟩ => show (a.val * 128 + k.val) / 128 % 128 = a.val; omega
  | ⟨2, _⟩ => show (a.val * 128 + k.val) % 128 = k.val; omega

theorem wr1_apply (x11 : (⟨S3x128x128, .f32⟩ : BufTy).Contents (Elt Ideal)) (k a : Fin 128) :
    val_main_v63 (F := Ideal) x11 (ix2 k a) = x11 (ix3 (1 : Fin 3) a k) := by
  rw [val_main_v63_apply, val_main_v38_apply, val_main_v37_apply]
  refine congrArg x11 (funext fun c => Fin.ext ?_)
  have ha := a.isLt
  have hk := k.isLt
  match c with
  | ⟨0, _⟩ => rfl
  | ⟨1, _⟩ => show (a.val * 128 + k.val) / 128 % 128 = a.val; omega
  | ⟨2, _⟩ => show (a.val * 128 + k.val) % 128 = k.val; omega

theorem wl2_apply (x9 : (⟨S3x128x128, .f32⟩ : BufTy).Contents (Elt Ideal)) (k a : Fin 128) :
    val_main_v91 (F := Ideal) x9 (ix2 k a) = x9 (ix3 (2 : Fin 3) a k) := by
  rw [val_main_v91_apply, val_main_v67_apply, val_main_v66_apply]
  refine congrArg x9 (funext fun c => Fin.ext ?_)
  have ha := a.isLt
  have hk := k.isLt
  match c with
  | ⟨0, _⟩ => rfl
  | ⟨1, _⟩ => show (a.val * 128 + k.val) / 128 % 128 = a.val; omega
  | ⟨2, _⟩ => show (a.val * 128 + k.val) % 128 = k.val; omega

theorem wr2_apply (x11 : (⟨S3x128x128, .f32⟩ : BufTy).Contents (Elt Ideal)) (k a : Fin 128) :
    val_main_v96 (F := Ideal) x11 (ix2 k a) = x11 (ix3 (2 : Fin 3) a k) := by
  rw [val_main_v96_apply, val_main_v71_apply, val_main_v70_apply]
  refine congrArg x11 (funext fun c => Fin.ext ?_)
  have ha := a.isLt
  have hk := k.isLt
  match c with
  | ⟨0, _⟩ => rfl
  | ⟨1, _⟩ => show (a.val * 128 + k.val) / 128 % 128 = a.val; omega
  | ⟨2, _⟩ => show (a.val * 128 + k.val) % 128 = k.val; omega

theorem bl0_apply (x10 : (⟨S3x128, .f32⟩ : BufTy).Contents (Elt Ideal)) (i : Fin 200000) (a : Fin 128) :
    val_main_v28 (F := Ideal) x10 (ix2 i a) = x10 (ix2 (0 : Fin 3) a) := by
  rw [val_main_v28_apply, val_main_v27_apply, val_main_v3_apply, val_main_v2_apply]
  refine congrArg x10 (funext fun c => Fin.ext ?_)
  have ha := a.isLt
  match c with
  | ⟨0, _⟩ => rfl
  | ⟨1, _⟩ => show a.val % 128 = a.val; omega

theorem bl1_apply (x10 : (⟨S3x128, .f32⟩ : BufTy).Contents (Elt Ideal)) (i : Fin 200000) (a : Fin 128) :
    val_main_v61 (F := Ideal) x10 (ix2 i a) = x10 (ix2 (1 : Fin 3) a) := by
  rw [val_main_v61_apply, val_main_v60_apply, val_main_v36_apply, val_main_v35_apply]
  refine congrArg x10 (funext fun c => Fin.ext ?_)
  have ha := a.isLt
  match c with
  | ⟨0, _⟩ => rfl
  | ⟨1, _⟩ => show a.val % 128 = a.val; omega

theorem bl2_apply (x10 : (⟨S3x128, .f32⟩ : BufTy).Contents (Elt Ideal)) (i : Fin 200000) (a : Fin 128) :
    val_main_v94 (F := Ideal) x10 (ix2 i a) = x10 (ix2 (2 : Fin 3) a) := by
  rw [val_main_v94_apply, val_main_v93_apply, val_main_v69_apply, val_main_v68_apply]
  refine congrArg x10 (funext fun c => Fin.ext ?_)
  have ha := a.isLt
  match c with
  | ⟨0, _⟩ => rfl
  | ⟨1, _⟩ => show a.val % 128 = a.val; omega

/-! ## The dense layers' weights transposed, their biases broadcast, the clamp's zero -/

theorem w1_apply (x12 : (⟨S128x384, .f32⟩ : BufTy).Contents (Elt Ideal)) (a : Fin 384) (k : Fin 128) :
    val_main_v100 (F := Ideal) x12 (ix2 a k) = x12 (ix2 k a) := by
  rw [val_main_v100_apply]
  refine congrArg x12 (funext fun c => Fin.ext ?_)
  match c with
  | ⟨0, _⟩ => rfl
  | ⟨1, _⟩ => rfl

theorem w2_apply (x14 : (⟨S128x128, .f32⟩ : BufTy).Contents (Elt Ideal)) (k j : Fin 128) :
    val_main_v106 (F := Ideal) x14 (ix2 k j) = x14 (ix2 j k) := by
  rw [val_main_v106_apply]
  refine congrArg x14 (funext fun c => Fin.ext ?_)
  match c with
  | ⟨0, _⟩ => rfl
  | ⟨1, _⟩ => rfl

theorem b1_apply (x13 : (⟨S128, .f32⟩ : BufTy).Contents (Elt Ideal)) (i : Fin 200000) (k : Fin 128) :
    val_main_v103 (F := Ideal) x13 (ix2 i k) = x13 (ix1 k) := by
  rw [val_main_v103_apply, val_main_v102_apply]
  refine congrArg x13 (funext fun c => Fin.ext ?_)
  match c with
  | ⟨0, _⟩ => rfl

theorem b2_apply (x15 : (⟨S128, .f32⟩ : BufTy).Contents (Elt Ideal)) (i : Fin 200000) (j : Fin 128) :
    val_main_v109 (F := Ideal) x15 (ix2 i j) = x15 (ix1 j) := by
  rw [val_main_v109_apply, val_main_v108_apply]
  refine congrArg x15 (funext fun c => Fin.ext ?_)
  match c with
  | ⟨0, _⟩ => rfl

theorem zero_apply (i : S200000x128.Idx) :
    val_main_call0_v0 (F := Ideal) i = Ideal.ofBits .f32 0x00000000#32 := by
  rw [val_main_call0_v0_apply, val_main_call0_cst_apply]
  rfl

/-! ## The three relations' layers -/

open Cert.RowSpec in
/-- Relation 0's layer as the reference computes it, at row `i` and feature `a`. -/
theorem rel0_apply (x0 : (⟨S200000x128, .f32⟩ : BufTy).Contents (Elt Ideal)) (x1 : (⟨S400000x128, .f32⟩ : BufTy).Contents (Elt Ideal)) (x3 x4 : (⟨S600000, .i32⟩ : BufTy).Contents (Elt Ideal)) (x9 : (⟨S3x128x128, .f32⟩ : BufTy).Contents (Elt Ideal)) (x10 : (⟨S3x128, .f32⟩ : BufTy).Contents (Elt Ideal)) (x11 : (⟨S3x128x128, .f32⟩ : BufTy).Contents (Elt Ideal)) (i : Fin 200000) (a : Fin 128) :
    val_main_v32 (F := Ideal) x0 x1 x3 x4 x9 x10 x11 (ix2 i a)
      = sageAlt (fun k => val_main_v24 (F := Ideal) x1 x3 x4 (ix2 i k)) (fun k => x0 (ix2 i k))
          (fun k a => x9 (ix3 (0 : Fin 3) a k)) (fun k a => x11 (ix3 (0 : Fin 3) a k)) (fun a => x10 (ix2 (0 : Fin 3) a)) a := by
  rw [val_main_v32_apply, val_main_v29_apply]
  unfold val_main_v26 val_main_v31 sageAlt
  rw [dg128_apply, dg128_apply, bl0_apply]
  simp only [wl0_apply, wr0_apply, Ideal.addf_def]

open Cert.RowSpec in
/-- Relation 1's layer as the reference computes it, at row `i` and feature `a`. -/
theorem rel1_apply (x0 : (⟨S200000x128, .f32⟩ : BufTy).Contents (Elt Ideal)) (x2 : (⟨S100000x128, .f32⟩ : BufTy).Contents (Elt Ideal)) (x5 x6 : (⟨S600000, .i32⟩ : BufTy).Contents (Elt Ideal)) (x9 : (⟨S3x128x128, .f32⟩ : BufTy).Contents (Elt Ideal)) (x10 : (⟨S3x128, .f32⟩ : BufTy).Contents (Elt Ideal)) (x11 : (⟨S3x128x128, .f32⟩ : BufTy).Contents (Elt Ideal)) (i : Fin 200000) (a : Fin 128) :
    val_main_v65 (F := Ideal) x0 x2 x5 x6 x9 x10 x11 (ix2 i a)
      = sageAlt (fun k => val_main_v57 (F := Ideal) x2 x5 x6 (ix2 i k)) (fun k => x0 (ix2 i k))
          (fun k a => x9 (ix3 (1 : Fin 3) a k)) (fun k a => x11 (ix3 (1 : Fin 3) a k)) (fun a => x10 (ix2 (1 : Fin 3) a)) a := by
  rw [val_main_v65_apply, val_main_v62_apply]
  unfold val_main_v59 val_main_v64 sageAlt
  rw [dg128_apply, dg128_apply, bl1_apply]
  simp only [wl1_apply, wr1_apply, Ideal.addf_def]

open Cert.RowSpec in
/-- Relation 2's layer as the reference computes it, at row `i` and feature `a`. -/
theorem rel2_apply (x0 : (⟨S200000x128, .f32⟩ : BufTy).Contents (Elt Ideal)) (x7 x8 : (⟨S600000, .i32⟩ : BufTy).Contents (Elt Ideal)) (x9 : (⟨S3x128x128, .f32⟩ : BufTy).Contents (Elt Ideal)) (x10 : (⟨S3x128, .f32⟩ : BufTy).Contents (Elt Ideal)) (x11 : (⟨S3x128x128, .f32⟩ : BufTy).Contents (Elt Ideal)) (i : Fin 200000) (a : Fin 128) :
    val_main_v98 (F := Ideal) x0 x7 x8 x9 x10 x11 (ix2 i a)
      = sageAlt (fun k => val_main_v90 (F := Ideal) x0 x7 x8 (ix2 i k)) (fun k => x0 (ix2 i k))
          (fun k a => x9 (ix3 (2 : Fin 3) a k)) (fun k a => x11 (ix3 (2 : Fin 3) a k)) (fun a => x10 (ix2 (2 : Fin 3) a)) a := by
  rw [val_main_v98_apply, val_main_v95_apply]
  unfold val_main_v92 val_main_v97 sageAlt
  rw [dg128_apply, dg128_apply, bl2_apply]
  simp only [wl2_apply, wr2_apply, Ideal.addf_def]

end Cert.ReferenceIdeal.Stages

end
-- ==== Proof.RefNet.lean ====
/-
  The reference is the network.

  Its first dense layer contracts the 384 joined features at once and adds the bias last; split into the three
  relations' 128 features this is the bias plus one contraction per relation (`hiddenAlt_eq`), each relation's
  features being its layer with the bias added between the two products (`sageAlt_eq`).  With the weights read
  through the reference's slices and transposes, the result is the row network of the neighbour means, the user
  features and the weights transposed the way the kernel's host side stages them.
-/
import proofs.«155005_j74036646248794_1_alg».proof.Proof.RefStages
import proofs.«155005_j74036646248794_1_alg».proof.Proof.NetSpec

noncomputable section

open scoped BigOperators

namespace Cert.ReferenceIdeal.NetValue

open Cert.ReferenceIdeal Cert.ReferenceIdeal.Gen Cert.ReferenceIdeal.Read Cert.ReferenceIdeal.Stages
open Idealize.ShloMosaic Idealize.ShloMosaic.ValueIdx Cert.RowSpec Cert.NetSpec

/-- The pre-activation of the first dense layer at row `i` and unit `k`. -/
theorem hidden_apply (x0 : (⟨S200000x128, .f32⟩ : BufTy).Contents (Elt Ideal)) (x1 : (⟨S400000x128, .f32⟩ : BufTy).Contents (Elt Ideal)) (x2 : (⟨S100000x128, .f32⟩ : BufTy).Contents (Elt Ideal)) (x3 x4 x5 x6 x7 x8 : (⟨S600000, .i32⟩ : BufTy).Contents (Elt Ideal))
    (x9 : (⟨S3x128x128, .f32⟩ : BufTy).Contents (Elt Ideal)) (x10 : (⟨S3x128, .f32⟩ : BufTy).Contents (Elt Ideal)) (x11 : (⟨S3x128x128, .f32⟩ : BufTy).Contents (Elt Ideal)) (x12 : (⟨S128x384, .f32⟩ : BufTy).Contents (Elt Ideal)) (x13 : (⟨S128, .f32⟩ : BufTy).Contents (Elt Ideal)) (i : Fin 200000) (k : Fin 128) :
    val_main_v104 (F := Ideal) x0 x1 x2 x3 x4 x5 x6 x7 x8 x9 x10 x11 x12 x13 (ix2 i k)
      = hidden
          (sage (fun k => val_main_v24 (F := Ideal) x1 x3 x4 (ix2 i k)) (fun k => x0 (ix2 i k)) (fun k a => x9 (ix3 (0 : Fin 3) a k))
            (fun k a => x11 (ix3 (0 : Fin 3) a k)) (fun a => x10 (ix2 (0 : Fin 3) a)))
          (sage (fun k => val_main_v57 (F := Ideal) x2 x5 x6 (ix2 i k)) (fun k => x0 (ix2 i k)) (fun k a => x9 (ix3 (1 : Fin 3) a k))
            (fun k a => x11 (ix3 (1 : Fin 3) a k)) (fun a => x10 (ix2 (1 : Fin 3) a)))
          (sage (fun k => val_main_v90 (F := Ideal) x0 x7 x8 (ix2 i k)) (fun k => x0 (ix2 i k)) (fun k a => x9 (ix3 (2 : Fin 3) a k))
            (fun k a => x11 (ix3 (2 : Fin 3) a k)) (fun a => x10 (ix2 (2 : Fin 3) a)))
          (fun a k => x12 (ix2 k (⟨a.val, by omega⟩ : Fin 384))) (fun a k => x12 (ix2 k (⟨128 + a.val, by omega⟩ : Fin 384)))
          (fun a k => x12 (ix2 k (⟨128 + 128 + a.val, by omega⟩ : Fin 384))) (fun k => x13 (ix1 k)) k := by
  rw [val_main_v104_apply]
  unfold val_main_v101
  rw [dg384_apply, b1_apply, Ideal.addf_def]
  have h := congrFun (hiddenAlt_eq
      (fun a : Fin 384 => val_main_v99 (F := Ideal) x0 x1 x2 x3 x4 x5 x6 x7 x8 x9 x10 x11 (ix2 i a))
      (fun (a : Fin 384) (k : Fin 128) => val_main_v100 (F := Ideal) x12 (ix2 a k)) (fun k => x13 (ix1 k))
      (sageAlt (fun k => val_main_v24 (F := Ideal) x1 x3 x4 (ix2 i k)) (fun k => x0 (ix2 i k)) (fun k a => x9 (ix3 (0 : Fin 3) a k))
        (fun k a => x11 (ix3 (0 : Fin 3) a k)) (fun a => x10 (ix2 (0 : Fin 3) a)))
      (sageAlt (fun k => val_main_v57 (F := Ideal) x2 x5 x6 (ix2 i k)) (fun k => x0 (ix2 i k)) (fun k a => x9 (ix3 (1 : Fin 3) a k))
        (fun k a => x11 (ix3 (1 : Fin 3) a k)) (fun a => x10 (ix2 (1 : Fin 3) a)))
      (sageAlt (fun k => val_main_v90 (F := Ideal) x0 x7 x8 (ix2 i k)) (fun k => x0 (ix2 i k)) (fun k a => x9 (ix3 (2 : Fin 3) a k))
        (fun k a => x11 (ix3 (2 : Fin 3) a k)) (fun a => x10 (ix2 (2 : Fin 3) a)))
      (fun a => by
        show val_main_v99 (F := Ideal) x0 x1 x2 x3 x4 x5 x6 x7 x8 x9 x10 x11 (ix2 i ⟨a.val, _⟩) = _
        unfold val_main_v99
        exact (cat3_first _ _ _ _ i a _).trans (rel0_apply x0 x1 x3 x4 x9 x10 x11 i a))
      (fun a => by
        show val_main_v99 (F := Ideal) x0 x1 x2 x3 x4 x5 x6 x7 x8 x9 x10 x11 (ix2 i ⟨128 + a.val, _⟩) = _
        unfold val_main_v99
        exact (cat3_second _ _ _ _ i a _).trans (rel1_apply x0 x2 x5 x6 x9 x10 x11 i a))
      (fun a => by
        show val_main_v99 (F := Ideal) x0 x1 x2 x3 x4 x5 x6 x7 x8 x9 x10 x11 (ix2 i ⟨128 + 128 + a.val, _⟩) = _
        unfold val_main_v99
        exact (cat3_third _ _ _ _ i a _).trans (rel2_apply x0 x7 x8 x9 x10 x11 i a))) k
  refine h.trans ?_
  simp only [sageAlt_eq, w1_apply]

/-- The network at `(i, j)` is the row network of the rows `i` at column `j`. -/
theorem net_ix2 (M0 M1 M2 XU : (⟨2, ![200000, 128]⟩ : Shape).Idx → EReal)
    (WL : (⟨3, ![3, 128, 128]⟩ : Shape).Idx → EReal) (BL : (⟨2, ![3, 128]⟩ : Shape).Idx → EReal)
    (WR : (⟨3, ![3, 128, 128]⟩ : Shape).Idx → EReal) (W1 : (⟨2, ![384, 128]⟩ : Shape).Idx → EReal)
    (B1 : (⟨1, ![128]⟩ : Shape).Idx → EReal) (W2 : (⟨2, ![128, 128]⟩ : Shape).Idx → EReal)
    (B2 : (⟨1, ![128]⟩ : Shape).Idx → EReal) (i : Fin 200000) (j : Fin 128) :
    net M0 M1 M2 XU WL BL WR W1 B1 W2 B2 (ix2 i j)
      = rowNet (fun k => M0 (ix2 i k)) (fun k => M1 (ix2 i k)) (fun k => M2 (ix2 i k)) (fun k => XU (ix2 i k))
          WL BL WR W1 B1 W2 B2 j := rfl

/-- The reference's result is the network of the three neighbour means, the user features, and ANY weight arrays that
    are the arguments' transposes entry by entry (as the arrays the kernel's host side stages are). -/
theorem ref_eq (x0 : (⟨S200000x128, .f32⟩ : BufTy).Contents (Elt Ideal)) (x1 : (⟨S400000x128, .f32⟩ : BufTy).Contents (Elt Ideal)) (x2 : (⟨S100000x128, .f32⟩ : BufTy).Contents (Elt Ideal)) (x3 x4 x5 x6 x7 x8 : (⟨S600000, .i32⟩ : BufTy).Contents (Elt Ideal))
    (x9 : (⟨S3x128x128, .f32⟩ : BufTy).Contents (Elt Ideal)) (x10 : (⟨S3x128, .f32⟩ : BufTy).Contents (Elt Ideal)) (x11 : (⟨S3x128x128, .f32⟩ : BufTy).Contents (Elt Ideal)) (x12 : (⟨S128x384, .f32⟩ : BufTy).Contents (Elt Ideal)) (x13 : (⟨S128, .f32⟩ : BufTy).Contents (Elt Ideal))
    (x14 : (⟨S128x128, .f32⟩ : BufTy).Contents (Elt Ideal)) (x15 : (⟨S128, .f32⟩ : BufTy).Contents (Elt Ideal))
    (WL WR : (⟨3, ![3, 128, 128]⟩ : Shape).Idx → EReal) (W1 : (⟨2, ![384, 128]⟩ : Shape).Idx → EReal)
    (W2 : (⟨2, ![128, 128]⟩ : Shape).Idx → EReal)
    (hWL : ∀ (l : Fin 3) (k a : Fin 128), WL (ix3 l k a) = x9 (ix3 l a k))
    (hWR : ∀ (l : Fin 3) (k a : Fin 128), WR (ix3 l k a) = x11 (ix3 l a k))
    (hW1 : ∀ (a : Fin 384) (k : Fin 128), W1 (ix2 a k) = x12 (ix2 k a))
    (hW2 : ∀ k j : Fin 128, W2 (ix2 k j) = x14 (ix2 j k)) :
    val_main_v110 (F := Ideal) x0 x1 x2 x3 x4 x5 x6 x7 x8 x9 x10 x11 x12 x13 x14 x15
      = net (val_main_v24 (F := Ideal) x1 x3 x4) (val_main_v57 (F := Ideal) x2 x5 x6) (val_main_v90 (F := Ideal) x0 x7 x8) x0 WL x10 WR W1 x13 W2 x15 := by
  funext idx
  obtain ⟨i, j, rfl⟩ : ∃ (i : Fin 200000) (j : Fin 128), idx = ix2 i j := ⟨idx 0, idx 1, eq_ix2 idx⟩
  rw [net_ix2, val_main_v110_apply]
  unfold val_main_v107 rowNet head
  rw [dg128_apply, b2_apply, Ideal.addf_def]
  simp only [val_main_v105_apply, zero_apply, hidden_apply, w2_apply, Ideal.maximumf_def, hWL, hWR, hW1, hW2]

end Cert.ReferenceIdeal.NetValue

end
-- ==== Proof.Bridge.lean ====
/-
  The two results are one function of the arguments.

  The kernel's result is the network of what its windows stage; what they stage is the reference's three neighbour
  means, the user features and biases as launched, and the weights transposed; and the reference's result is the
  network of exactly those.
-/
import proofs.«155005_j74036646248794_1_alg».proof.Proof.KernelArray
import proofs.«155005_j74036646248794_1_alg».proof.Proof.KernelHost
import proofs.«155005_j74036646248794_1_alg».proof.Proof.RefNet
import Idealize.ShloMosaic.Lib.ValueLayout

noncomputable section

namespace Cert.Bridge

open Idealize.ShloMosaic Idealize.ShloMosaic.TcCoe Idealize.SL.Sem Idealize.ShloMosaic.ValueIdx Cert.NetSpec
open Cert.KernelIdeal.Gen Cert.KernelIdeal.HostValue

/-- Two networks are equal when their arrays are. -/
theorem net_congr {M0 M0' M1 M1' M2 M2' XU XU' : (⟨2, ![200000, 128]⟩ : Shape).Idx → EReal}
    {WL WL' : (⟨3, ![3, 128, 128]⟩ : Shape).Idx → EReal} {BL BL' : (⟨2, ![3, 128]⟩ : Shape).Idx → EReal}
    {WR WR' : (⟨3, ![3, 128, 128]⟩ : Shape).Idx → EReal} {W1 W1' : (⟨2, ![384, 128]⟩ : Shape).Idx → EReal}
    {B1 B1' : (⟨1, ![128]⟩ : Shape).Idx → EReal} {W2 W2' : (⟨2, ![128, 128]⟩ : Shape).Idx → EReal}
    {B2 B2' : (⟨1, ![128]⟩ : Shape).Idx → EReal}
    (h0 : M0 = M0') (h1 : M1 = M1') (h2 : M2 = M2') (hu : XU = XU') (hWL : WL = WL') (hBL : BL = BL') (hWR : WR = WR')
    (hW1 : W1 = W1') (hB1 : B1 = B1') (hW2 : W2 = W2') (hB2 : B2 = B2') :
    net M0 M1 M2 XU WL BL WR W1 B1 W2 B2 = net M0' M1' M2' XU' WL' BL' WR' W1' B1' W2' B2' := by
  subst h0 h1 h2 hu hWL hBL hWR hW1 hB1 hW2 hB2
  rfl

variable (m : (ℓ : Loc Cert.KernelIdeal.nD Cert.KernelIdeal.τ Cert.KernelIdeal.sig) → Buf (Elt Ideal) ℓ)

/-- The array the kernel's result ends as is the reference's result term of the same arguments. -/
theorem result_eq (c : Dev Cert.KernelIdeal.nD) :
    Cert.KernelIdeal.ArrayValue.result m c
      = Cert.ReferenceIdeal.Read.val_main_v110 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5))
        (m ((c : Thread Cert.KernelIdeal.nD Cert.KernelIdeal.τ).loc Cert.KernelIdeal.main_arg6))
        (m ((c : Thread Cert.KernelIdeal.nD Cert.KernelIdeal.τ).loc Cert.KernelIdeal.main_arg7))
        (m ((c : Thread Cert.KernelIdeal.nD Cert.KernelIdeal.τ).loc Cert.KernelIdeal.main_arg8))
        (m ((c : Thread Cert.KernelIdeal.nD Cert.KernelIdeal.τ).loc Cert.KernelIdeal.main_arg9))
        (m ((c : Thread Cert.KernelIdeal.nD Cert.KernelIdeal.τ).loc Cert.KernelIdeal.main_arg10))
        (m ((c : Thread Cert.KernelIdeal.nD Cert.KernelIdeal.τ).loc Cert.KernelIdeal.main_arg11))
        (m ((c : Thread Cert.KernelIdeal.nD Cert.KernelIdeal.τ).loc Cert.KernelIdeal.main_arg12))
        (m ((c : Thread Cert.KernelIdeal.nD Cert.KernelIdeal.τ).loc Cert.KernelIdeal.main_arg13))
        (m ((c : Thread Cert.KernelIdeal.nD Cert.KernelIdeal.τ).loc Cert.KernelIdeal.main_arg14))
        (m ((c : Thread Cert.KernelIdeal.nD Cert.KernelIdeal.τ).loc Cert.KernelIdeal.main_arg15)) := by
  refine Eq.trans ?_ (Cert.ReferenceIdeal.NetValue.ref_eq
    (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15))
    (V m c (Pipeline.arrRef Cert.KernelIdeal.spec0 4)) (V m c (Pipeline.arrRef Cert.KernelIdeal.spec0 6))
    (V m c (Pipeline.arrRef Cert.KernelIdeal.spec0 7)) (V m c (Pipeline.arrRef Cert.KernelIdeal.spec0 9))
    (fun l k a => (congrFun (staged_wl m c) (ix3 l k a)).trans (transpose_ix3_021_apply _ _ l k a))
    (fun l k a => (congrFun (staged_wr m c) (ix3 l k a)).trans (transpose_ix3_021_apply _ _ l k a))
    (fun a k => (congrFun (staged_w1 m c) (ix2 a k)).trans (transpose_ix2_apply _ _ a k))
    (fun k j => (congrFun (staged_w2 m c) (ix2 k j)).trans (transpose_ix2_apply _ _ k j))).symm
  exact net_congr (staged_mean0 m c) (staged_mean1 m c) (staged_mean2 m c) (V_main_arg0 m c) rfl (V_main_arg10 m c) rfl rfl
    (V_main_arg13 m c) rfl (V_main_arg15 m c)

end Cert.Bridge

end
-- ==== Proof.lean ====
/-
  A three-relation neighbour-mean layer followed by a two-layer perceptron over 200 000 user rows.

  Both programs first compute, for each of the three relations, the mean over incoming edges of the source rows
  (a gather along the edges, a scatter-add of the rows and of ones into the destination rows, the counts clamped
  below at one, a division); these host operations are the same in both, applied to the same arguments.  Then, per
  user row, relation `l`'s output is `mean_l · Wl[l]ᵀ + x · Wr[l]ᵀ + bl[l]`; the three outputs side by side are fed
  through `relu(· W1ᵀ + b1) · W2ᵀ + b2`.

  The kernel does the per-row part in one launch over 50 blocks of 4000 rows, the weights transposed beforehand on
  the host; it adds each relation's bias after both products and accumulates the first dense layer relation by
  relation starting from its bias.  The reference adds the bias between the two products and contracts all 384
  features at once, adding the bias last.  At the exact instance the two differ only in how sums are grouped and in
  a 384-term sum being cut into three 128-term sums: commutativity and associativity of addition on the extended
  reals, which need no finiteness, so the precondition is never opened.

  The modules: `RowSpec` (the row network and the two regroupings), `NetSpec` (the network over staged arrays),
  `KernelRow` (the kernel body at a row and a column), `KernelArray` (from the 50 blocks to the result array),
  `KernelHost` (what the windows stage, in terms of the arguments), `RefStages` and `RefNet` (the reference is the
  network), `Bridge` (the two results are one function of the arguments).
-/
import proofs.«155005_j74036646248794_1_alg».proof.Defs
import proofs.«155005_j74036646248794_1_alg».proof.Proof.Gen.Kernel
import proofs.«155005_j74036646248794_1_alg».proof.Proof.Gen.Kernel.Skeleton
import proofs.«155005_j74036646248794_1_alg».proof.Proof.Gen.Kernel.Launch
import proofs.«155005_j74036646248794_1_alg».proof.Proof.Gen.Kernel.Points
import proofs.«155005_j74036646248794_1_alg».proof.Proof.Gen.Kernel.Frame
import proofs.«155005_j74036646248794_1_alg».proof.Proof.Gen.KernelIdeal
import proofs.«155005_j74036646248794_1_alg».proof.Proof.Gen.KernelIdeal.Skeleton
import proofs.«155005_j74036646248794_1_alg».proof.Proof.Gen.KernelIdeal.Launch
import proofs.«155005_j74036646248794_1_alg».proof.Proof.Gen.KernelIdeal.Points
import proofs.«155005_j74036646248794_1_alg».proof.Proof.Gen.KernelIdeal.Frame
import proofs.«155005_j74036646248794_1_alg».proof.Proof.Gen.ReferenceIdeal
import proofs.«155005_j74036646248794_1_alg».proof.Proof.Gen.Pre_finite_inputs
import proofs.«155005_j74036646248794_1_alg».proof.Proof.Gen.KernelIdeal.Value
import proofs.«155005_j74036646248794_1_alg».proof.Proof.Gen.ReferenceIdeal.Run
import proofs.«155005_j74036646248794_1_alg».proof.Proof.Gen.ReferenceIdeal.Read
import proofs.«155005_j74036646248794_1_alg».proof.Proof.Bridge
import Idealize.ShloMosaic.Adequacy
import Idealize.ShloMosaic.Init

noncomputable section

namespace Cert.Proof

open Idealize.ShloMosaic Idealize.SL.Sem

/-- The word-level kernel runs, faults nowhere and leaves its arguments as they were. -/
theorem frame_kernel [Cert.Kernel.Facts] [Cert.Pre_finite_inputs.Facts] : Cert.frame_Kernel :=
  fun m ρ _ => Cert.Kernel.Gen.frame m ρ

/-- So does the kernel read at the exact instance. -/
theorem frame_kernel_ideal [Cert.KernelIdeal.Facts] [Cert.Pre_finite_inputs.Facts] : Cert.frame_KernelIdeal :=
  fun m ρ _ => Cert.KernelIdeal.Gen.frame m ρ

/-- The reference's run, with its result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the arguments both programs end with the network of the arguments: the kernel's
    result array block by block, the reference's by its stages, and the two are one function. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.ArrayValue.result m c, ?_, ?_⟩
  · exact (θ_run Cert.KernelIdeal.defs _ _).mono
      (fun r h c => ⟨(h c).1.trans (Cert.KernelIdeal.ArrayValue.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12, a13, a14, a15⟩ := hagree c
    rw [Cert.ReferenceIdeal.Read.val_main_v110_eq, a0, a1, a2, a3, a4, a5, a6, a7, a8, a9, a10, a11, a12, a13, a14, a15]
    exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
